-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_v63 main_v67

def fn_part2 {F : FTy → Type} [FloatOps F] (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S64 .f32) (main_arg6 : FVec F S64x1 .f32) (main_arg7 : FVec F S1 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S64x1 .f32) (main_arg7 : FVec F S1 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S2000x128 : Shape := ⟨2, ![2000, 128]⟩
abbrev S2000x64 : Shape := ⟨2, ![2000, 64]⟩
abbrev S3200000x64 : Shape := ⟨2, ![3200000, 64]⟩
abbrev S1x64 : Shape := ⟨2, ![1, 64]⟩
abbrev S2000x1 : Shape := ⟨2, ![2000, 1]⟩
abbrev S1x1 : Shape := ⟨2, ![1, 1]⟩

abbrev nBuf : Space → Nat
  | .hbm => 152
  | .vmem => 50
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S1x3200000, .i32⟩
  | 17 => ⟨S3200000, .i32⟩
  | 18 => ⟨S1x3200000, .i32⟩
  | 19 => ⟨S3200000, .i32⟩
  | 20 => ⟨S_, .f32⟩
  | 21 => ⟨S3200000, .f32⟩
  | 22 => ⟨S_, .f32⟩
  | 23 => ⟨S100000, .f32⟩
  | 24 => ⟨S3200000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S100000x1, .f32⟩
  | 31 => ⟨S100000x64, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000, .f32⟩
  | 50 => ⟨S3200000, .f32⟩
  | 51 => ⟨S3200000x1, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x64, .f32⟩
  | 61 => ⟨S3200000x64, .f32⟩
  | 62 => ⟨S3200000x64, .f32⟩
  | 63 => ⟨S_, .f32⟩
  | 64 => ⟨S100000x64, .f32⟩
  | 65 => ⟨S3200000x1, .i32⟩
  | 66 => ⟨S100000x64, .f32⟩
  | 67 => ⟨S1x64, .f32⟩
  | 68 => ⟨S1x64, .f32⟩
  | 69 => ⟨S1x64, .f32⟩
  | 70 => ⟨S1x64, .f32⟩
  | 71 => ⟨S1x64, .f32⟩
  | 72 => ⟨S100000x64, .f32⟩
  | 73 => ⟨S100000x64, .f32⟩
  | 74 => ⟨S_, .i32⟩
  | 75 => ⟨S3200000, .i32⟩
  | 76 => ⟨S3200000, .i1⟩
  | 77 => ⟨S_, .i32⟩
  | 78 => ⟨S3200000, .i32⟩
  | 79 => ⟨S3200000, .i32⟩
  | 80 => ⟨S3200000, .i32⟩
  | 81 => ⟨S3200000x1, .i32⟩
  | 82 => ⟨S3200000, .f32⟩
  | 83 => ⟨S_, .i32⟩
  | 84 => ⟨S3200000, .i32⟩
  | 85 => ⟨S3200000, .i1⟩
  | 86 => ⟨S_, .i32⟩
  | 87 => ⟨S3200000, .i32⟩
  | 88 => ⟨S3200000, .i32⟩
  | 89 => ⟨S3200000, .i32⟩
  | 90 => ⟨S3200000x1, .i32⟩
  | 91 => ⟨S3200000, .f32⟩
  | 92 => ⟨S3200000, .f32⟩
  | 93 => ⟨S3200000x1, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000x64, .f32⟩
  | 103 => ⟨S3200000x64, .f32⟩
  | 104 => ⟨S3200000x64, .f32⟩
  | 105 => ⟨S_, .f32⟩
  | 106 => ⟨S100000x64, .f32⟩
  | 107 => ⟨S3200000x1, .i32⟩
  | 108 => ⟨S100000x64, .f32⟩
  | 109 => ⟨S1x64, .f32⟩
  | 110 => ⟨S1x64, .f32⟩
  | 111 => ⟨S1x64, .f32⟩
  | 112 => ⟨S1x64, .f32⟩
  | 113 => ⟨S1x64, .f32⟩
  | 114 => ⟨S100000x64, .f32⟩
  | 115 => ⟨S100000x1, .f32⟩
  | 116 => ⟨S_, .i32⟩
  | 117 => ⟨S3200000, .i32⟩
  | 118 => ⟨S3200000, .i1⟩
  | 119 => ⟨S_, .i32⟩
  | 120 => ⟨S3200000, .i32⟩
  | 121 => ⟨S3200000, .i32⟩
  | 122 => ⟨S3200000, .i32⟩
  | 123 => ⟨S3200000x1, .i32⟩
  | 124 => ⟨S3200000, .f32⟩
  | 125 => ⟨S_, .i32⟩
  | 126 => ⟨S3200000, .i32⟩
  | 127 => ⟨S3200000, .i1⟩
  | _ => ⟨S100000x128, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000, .f32⟩
  | 6 => ⟨S3200000, .f32⟩
  | 7 => ⟨S3200000x1, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x1, .f32⟩
  | 17 => ⟨S3200000x1, .f32⟩
  | 18 => ⟨S_, .f32⟩
  | 19 => ⟨S100000x1, .f32⟩
  | 20 => ⟨S3200000x1, .i32⟩
  | 21 => ⟨S100000x1, .f32⟩
  | 22 => ⟨S1x1, .f32⟩
  | 23 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S64x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x1, .f32⟩
  | .local _ .vmem, ⟨28, _⟩ => ⟨S2000x1, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S64x1, .f32⟩
  | .local _ .vmem, ⟨39, _⟩ => ⟨S2000x1, .f32⟩
  | .local _ .vmem, ⟨40, _⟩ => ⟨S2000x1, .f32⟩
  | .local _ .vmem, ⟨41, _⟩ => ⟨S2000x1, .f32⟩
  | .local _ .vmem, ⟨42, _⟩ => ⟨S2000x1, .f32⟩
  | .local _ .vmem, ⟨43, _⟩ => ⟨S2000x1, .f32⟩
  | .local _ .vmem, ⟨44, _⟩ => ⟨S2000x1, .f32⟩
  | .local _ .vmem, ⟨45, _⟩ => ⟨S2000x1, .f32⟩
  | .local _ .vmem, ⟨46, _⟩ => ⟨S2000x1, .f32⟩
  | .local _ .vmem, ⟨47, _⟩ => ⟨S1x1, .f32⟩
  | .local _ .vmem, ⟨48, _⟩ => ⟨S2000x1, .f32⟩
  | .local _ .vmem, ⟨49, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_15 : Ref sig .tc := ⟨.hbm, 116, rfl⟩
abbrev main_v83 : Ref sig .tc := ⟨.hbm, 117, rfl⟩
abbrev main_v84 : Ref sig .tc := ⟨.hbm, 118, rfl⟩
abbrev main_c_16 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_17 : Ref sig .tc := ⟨.hbm, 125, rfl⟩
abbrev main_v90 : Ref sig .tc := ⟨.hbm, 126, rfl⟩
abbrev main_v91 : Ref sig .tc := ⟨.hbm, 127, rfl⟩
abbrev main_c_18 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_19 : Ref sig .tc := ⟨.hbm, 136, rfl⟩
abbrev main_v99 : Ref sig .tc := ⟨.hbm, 137, rfl⟩
abbrev main_v100 : Ref sig .tc := ⟨.hbm, 138, rfl⟩
abbrev main_c_20 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_21 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem4_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S100000_S3200000x1_S3200000_n_0_0_1_wf : ScatterDims.WF S100000 S3200000x1 S3200000 [] [0] [0] 1
  dot_S2000x128_S128x64_S2000x64_1_0_0_1_n_n_wf : DotDims.WF S2000x128 S128x64 S2000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S100000x64.size a
  hwx1_8 : ∀ i : grid1.Coords, EltTy.bits .f32 = 32 ∨ (Rect.block (s := S100000x64) S2000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x64.size a ≤ S100000x64.size a
  hwx3_8 : ∀ i : grid3.Coords, EltTy.bits .f32 = 32 ∨ (Rect.block (s := S100000x64) S2000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x1.size a ≤ S100000x1.size a
  hwx5_0 : ∀ i : grid5.Coords, EltTy.bits .f32 = 32 ∨ (Rect.block (s := S100000x1) S2000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x1.size a ≤ S100000x1.size a
  hwx5_4 : ∀ i : grid5.Coords, EltTy.bits .f32 = 32 ∨ (Rect.block (s := S100000x1) S2000x1.size (cc5_transform_4 i) (hinb5_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v46) S2000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v46) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v80) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v81) S2000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v81) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S2000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v82) S2000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v110) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v111) S2000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 206
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S1x3200000, .i32⟩
  | 17 => ⟨S3200000, .i32⟩
  | 18 => ⟨S1x3200000, .i32⟩
  | 19 => ⟨S3200000, .i32⟩
  | 20 => ⟨S_, .f32⟩
  | 21 => ⟨S3200000, .f32⟩
  | 22 => ⟨S_, .f32⟩
  | 23 => ⟨S100000, .f32⟩
  | 24 => ⟨S3200000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S100000x64, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S3200000x1, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x64, .f32⟩
  | 60 => ⟨S3200000x64, .f32⟩
  | 61 => ⟨S3200000x64, .f32⟩
  | 62 => ⟨S_, .f32⟩
  | 63 => ⟨S100000x64, .f32⟩
  | 64 => ⟨S3200000x1, .i32⟩
  | 65 => ⟨S100000x64, .f32⟩
  | 66 => ⟨S100000, .f32⟩
  | 67 => ⟨S100000x1, .f32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S64, .f32⟩
  | 79 => ⟨S64, .f32⟩
  | 80 => ⟨S64, .f32⟩
  | 81 => ⟨S1x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S100000x64, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000, .f32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S3200000, .f32⟩
  | 112 => ⟨S3200000, .f32⟩
  | 113 => ⟨S3200000x1, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S3200000x64, .f32⟩
  | 123 => ⟨S3200000x64, .f32⟩
  | 124 => ⟨S3200000x64, .f32⟩
  | 125 => ⟨S_, .f32⟩
  | 126 => ⟨S100000x64, .f32⟩
  | 127 => ⟨S3200000x1, .i32⟩
  | _ => ⟨S100000x128, .f32⟩

abbrev hbmTy0_1 (i : Nat) : BufTy := match i % 128 with
  | 0 => ⟨S100000x64, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S64, .f32⟩
  | 14 => ⟨S64, .f32⟩
  | 15 => ⟨S64, .f32⟩
  | 16 => ⟨S1x64, .f32⟩
  | 17 => ⟨S100000x64, .f32⟩
  | 18 => ⟨S100000x64, .f32⟩
  | 19 => ⟨S1x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S100000x1, .f32⟩
  | 29 => ⟨S_, .i32⟩
  | 30 => ⟨S3200000, .i32⟩
  | 31 => ⟨S3200000, .i1⟩
  | 32 => ⟨S_, .i32⟩
  | 33 => ⟨S3200000, .i32⟩
  | 34 => ⟨S3200000, .i32⟩
  | 35 => ⟨S3200000, .i32⟩
  | 36 => ⟨S3200000x1, .i32⟩
  | 37 => ⟨S3200000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000, .f32⟩
  | 47 => ⟨S3200000, .f32⟩
  | 48 => ⟨S3200000x1, .f32⟩
  | 49 => ⟨S_, .i32⟩
  | 50 => ⟨S3200000, .i32⟩
  | 51 => ⟨S3200000, .i1⟩
  | 52 => ⟨S_, .i32⟩
  | 53 => ⟨S3200000, .i32⟩
  | 54 => ⟨S3200000, .i32⟩
  | 55 => ⟨S3200000, .i32⟩
  | 56 => ⟨S3200000x1, .i32⟩
  | 57 => ⟨S3200000x1, .f32⟩
  | 58 => ⟨S3200000x1, .f32⟩
  | 59 => ⟨S_, .f32⟩
  | 60 => ⟨S100000x1, .f32⟩
  | 61 => ⟨S3200000x1, .i32⟩
  | 62 => ⟨S100000x1, .f32⟩
  | 63 => ⟨S100000, .f32⟩
  | 64 => ⟨S100000x1, .f32⟩
  | 65 => ⟨S100000x1, .f32⟩
  | 66 => ⟨S100000x1, .f32⟩
  | 67 => ⟨S1x1, .f32⟩
  | 68 => ⟨S100000x1, .f32⟩
  | 69 => ⟨S100000x1, .f32⟩
  | 70 => ⟨S100000x1, .f32⟩
  | 71 => ⟨S100000x1, .f32⟩
  | 72 => ⟨S_, .f32⟩
  | 73 => ⟨S100000x1, .f32⟩
  | 74 => ⟨S100000x1, .f32⟩
  | 75 => ⟨S_, .f32⟩
  | 76 => ⟨S100000x1, .f32⟩
  | 77 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call0_cst : Ref sig .tc := ⟨.hbm, 90, rfl⟩
abbrev main_call0_v0 : Ref sig .tc := ⟨.hbm, 91, rfl⟩
abbrev main_v63 : Ref sig .tc := ⟨.hbm, 92, rfl⟩
abbrev main_v64 : Ref sig .tc := ⟨.hbm, 93, rfl⟩
abbrev main_c_9 : Ref sig .tc := ⟨.hbm, 94, rfl⟩
abbrev main_v65 : Ref sig .tc := ⟨.hbm, 95, rfl⟩
abbrev main_v66 : Ref sig .tc := ⟨.hbm, 96, rfl⟩
abbrev main_c_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_11 : Ref sig .tc := ⟨.hbm, 103, rfl⟩
abbrev main_v72 : Ref sig .tc := ⟨.hbm, 104, rfl⟩
abbrev main_v73 : Ref sig .tc := ⟨.hbm, 105, rfl⟩
abbrev main_c_12 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_13 : Ref sig .tc := ⟨.hbm, 114, rfl⟩
abbrev main_v81 : Ref sig .tc := ⟨.hbm, 115, rfl⟩
abbrev main_v82 : Ref sig .tc := ⟨.hbm, 116, rfl⟩
abbrev main_c_14 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_15 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_16 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_call1_cst : Ref sig .tc := ⟨.hbm, 153, rfl⟩
abbrev main_call1_v0 : Ref sig .tc := ⟨.hbm, 154, rfl⟩
abbrev main_v116 : Ref sig .tc := ⟨.hbm, 155, rfl⟩
abbrev main_v117 : Ref sig .tc := ⟨.hbm, 156, rfl⟩
abbrev main_c_17 : Ref sig .tc := ⟨.hbm, 157, rfl⟩
abbrev main_v118 : Ref sig .tc := ⟨.hbm, 158, rfl⟩
abbrev main_v119 : Ref sig .tc := ⟨.hbm, 159, rfl⟩
abbrev main_c_18 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_19 : Ref sig .tc := ⟨.hbm, 166, rfl⟩
abbrev main_v125 : Ref sig .tc := ⟨.hbm, 167, rfl⟩
abbrev main_v126 : Ref sig .tc := ⟨.hbm, 168, rfl⟩
abbrev main_c_20 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_c_21 : Ref sig .tc := ⟨.hbm, 177, rfl⟩
abbrev main_v134 : Ref sig .tc := ⟨.hbm, 178, rfl⟩
abbrev main_v135 : Ref sig .tc := ⟨.hbm, 179, rfl⟩
abbrev main_c_22 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_23 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_cst_24 : Ref sig .tc := ⟨.hbm, 200, rfl⟩
abbrev main_v154 : Ref sig .tc := ⟨.hbm, 201, rfl⟩
abbrev main_v155 : Ref sig .tc := ⟨.hbm, 202, rfl⟩
abbrev main_cst_25 : Ref sig .tc := ⟨.hbm, 203, rfl⟩
abbrev main_v156 : Ref sig .tc := ⟨.hbm, 204, rfl⟩
abbrev main_v157 : Ref sig .tc := ⟨.hbm, 205, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.KernelRun.lean ====
/-
  The idealized kernel's run with its result named. The program is ten segments: four stretches of host
  operations and six regions. The contents of every buffer at the boundaries between segments form a chain
  from the launch memory (the generated W0 … W10: a stretch applies its operations, a region replaces its
  windows' arrays by what its write-backs leave). Every weakly fair execution terminates with every
  unscoped buffer at the last link of that chain; so the result buffer ends at the last link read at the
  result's reference, and each argument, which no segment writes, at its launch contents.
-/
import proofs.«137989_j41266045780998_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the ten segments; the last thread state is read against the final state at every unscoped
    buffer, of which the result's and the sixteen arguments' are kept. -/
theorem run : θ_run defs (onTc (τ := τ) (main (F := F))) ⟨m, fun _ => 0, ρ⟩ (fun r => ∀ c : Dev nD,
      r.2.mem ((c.tc : Thread nD τ).loc main_v111) = W10 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v111 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.RunValue

end
-- ==== Proof.Spec.lean ====
/-
  The layers of a three-layer graph convolution network on 100000 nodes, as functions of whole arrays.

  One layer takes node features X (one row per node), multiplies every row by a weight matrix (H = X W), gathers
  H along the edges and sums the messages at their destinations (the aggregate A, computed by the same host
  operations on both sides and never opened here), and then combines, at node r and feature j,

      pre (r, j) = (A (r, j) + H (r, j) * (d r * d r)) + b j

  where d r is the inverse square root of node r's degree, kept as a column [100000, 1], and b a bias row [1, F].
  The first two layers follow with a batch normalisation at inference and a rectifier,

      max ((((pre - mu j) * rsqrt (var j + eps)) * g j) + beta j) 0 ,

  the last one with the logistic function 1 / (1 + exp (- pre)).

  The three dense products differ only in their extents (128 to 64, 64 to 64, 64 to 1 features).
-/
import Idealize.ShloMosaic.PureOps.Ideal
import Idealize.ShloMosaic.Lib.ValueIdx

noncomputable section

open scoped BigOperators

namespace Cert.Spec

open Idealize.ShloMosaic Idealize.ShloMosaic.ValueIdx

/-- Node features of width 128, 64 and 1; the weight matrices; a row of 64 or 1 per-feature parameters. -/
abbrev N128 : Shape := ⟨2, ![100000, 128]⟩
abbrev N64 : Shape := ⟨2, ![100000, 64]⟩
abbrev N1 : Shape := ⟨2, ![100000, 1]⟩
abbrev W128x64 : Shape := ⟨2, ![128, 64]⟩
abbrev W64x64 : Shape := ⟨2, ![64, 64]⟩
abbrev W64x1 : Shape := ⟨2, ![64, 1]⟩
abbrev R64 : Shape := ⟨2, ![1, 64]⟩
abbrev R1 : Shape := ⟨2, ![1, 1]⟩

/-- Row r of X against column q of W: the (r, q) entry of X W, for the three pairs of extents. -/
def lin128 (x : N128.Idx → EReal) (w : W128x64.Idx → EReal) : N64.Idx → EReal :=
  fun i => ∑ k : Fin 128, x (ix2 (i 0) k) * w (ix2 k (i 1))
def lin64 (x : N64.Idx → EReal) (w : W64x64.Idx → EReal) : N64.Idx → EReal :=
  fun i => ∑ k : Fin 64, x (ix2 (i 0) k) * w (ix2 k (i 1))
def lin1 (x : N64.Idx → EReal) (w : W64x1.Idx → EReal) : N1.Idx → EReal :=
  fun i => ∑ k : Fin 64, x (ix2 (i 0) k) * w (ix2 k (i 1))

/-- The combination before the nonlinearity at width 64: aggregate, self loop scaled by the squared inverse
    root degree of the node, bias. -/
def pre64 (h agg : N64.Idx → EReal) (d : N1.Idx → EReal) (b : R64.Idx → EReal) : N64.Idx → EReal :=
  fun i => (agg i + h i * (d (ix2 (i 0) (0 : Fin 1)) * d (ix2 (i 0) (0 : Fin 1)))) + b (ix2 (0 : Fin 1) (i 1))

/-- Batch normalisation at inference (mean mu, variance va, scale g, shift be, the variance offset the binary
    value both programs print) followed by the rectifier. -/
def bnRelu (h agg : N64.Idx → EReal) (d : N1.Idx → EReal) (b g be mu va : R64.Idx → EReal) : N64.Idx → EReal :=
  fun i => max ((((pre64 h agg d b i - mu (ix2 (0 : Fin 1) (i 1)))
        * Ideal.rsqrt (va (ix2 (0 : Fin 1) (i 1)) + Ideal.ofBits .f32 0x3727C5AC#32))
        * g (ix2 (0 : Fin 1) (i 1))) + be (ix2 (0 : Fin 1) (i 1)))
      (Ideal.ofBits .f32 0x00000000#32)

/-- The last layer at width 1: the same combination, then the logistic function. -/
def pre1 (h agg d : N1.Idx → EReal) (b : R1.Idx → EReal) : N1.Idx → EReal :=
  fun i => (agg i + h i * (d i * d i)) + b (ix2 (0 : Fin 1) (0 : Fin 1))
def logistic1 (h agg d : N1.Idx → EReal) (b : R1.Idx → EReal) : N1.Idx → EReal :=
  fun i => Ideal.div (Ideal.ofBits .f32 0x3F800000#32)
    (Ideal.ofBits .f32 0x3F800000#32 + Ideal.exp (- pre1 h agg d b i))

end Cert.Spec

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.Dense0.lean ====
/-
  The dense product of region 0: every grid point multiplies its block of 2000 rows of the features by the whole
  weight matrix, so the array the region leaves is the product of the whole feature matrix with the weights,
  row by row. A row r of the result lies in block r / 2000, at row r % 2000 of it; the weights' one block is
  the matrix itself.
-/
import proofs.«137989_j41266045780998_1_alg».proof.Proof.Gen.KernelIdeal.Frame
import proofs.«137989_j41266045780998_1_alg».proof.Proof.Spec
import proofs.«137989_j41266045780998_1_alg».proof.Proof.LibDotRows
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Dense0

open Cert.KernelIdeal Cert.KernelIdeal.Gen Cert.Hand

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): row p of the loaded feature block against column q of the loaded weights
    (the roundings to bf16 are the identity on the extended reals, and the accumulator starts at zero). -/
theorem pay_apply (l : Vec Ideal S2000x128 .f32) (r : Vec Ideal S128x64 .f32) (p : Fin 2000) (q : Fin 64) :
    k0_pay1 (F := Ideal) l r (ix2 p q) = ∑ k : Fin 128, l (ix2 p k) * r (ix2 k q) := by
  unfold k0_pay1
  refine (Ideal.matmul_constant_zero_apply dot_S2000x128_S128x64_S2000x64_1_0_0_1_n_n none _ _ (ix2 p q)).trans ?_
  show ∑ c, l (dot_S2000x128_S128x64_S2000x64_1_0_0_1_n_n.lhsIdx (ix2 p q) c) * r (dot_S2000x128_S128x64_S2000x64_1_0_0_1_n_n.rhsIdx (ix2 p q) c) = _
  dot_rows dot_S2000x128_S128x64_S2000x64_1_0_0_1_n_n S2000x128 S128x64 128

/-- The grid's index maps: the features' and the result's block index is the point itself on the row axis, the
    weights' block is block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole arrays. -/
theorem flushed_eq (c : Dev nD) (t : Fin cfg0.N) :
    (dat0 V c).flushed 2 t = ((cfg0.win 2).blk t).view.read (Elt Ideal)
      (Cert.Spec.lin128 (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨e0, e1, e2, e3, e4, e5⟩ := idx_facts t
  funext j
  obtain ⟨p, q, rfl⟩ : ∃ (p : Fin 2000) (q : Fin 64), j = ix2 p q := ⟨j 0, j 1, eq_ix2 j⟩
  refine (pay_apply _ _ p q).trans ?_
  show _ = Cert.Spec.lin128 (V c main_arg0) (V c main_arg2) (((cfg0.win 2).blk t).view.emb (ix2 p q))
  unfold Cert.Spec.lin128
  refine Finset.sum_congr rfl fun k _ => ?_
  have hx : iblk0 V c 0 t (ix2 p k) = V c main_arg0 (ix2 (((cfg0.win 2).blk t).view.emb (ix2 p q) 0) k) := by
    unfold iblk0
    rw [View.read_apply]
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have hw : iblk0 V c 1 t (ix2 k q) = V c main_arg2 (ix2 k (((cfg0.win 2).blk t).view.emb (ix2 p q) 1)) := by
    unfold iblk0
    rw [View.read_apply]
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [hx, hw]

/-- An index of the result array is in point t's block iff each coordinate is in the block's range. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v12).slice (win0_2.rect t)).set ↔ _
  rw [View.set_slice_whole, Rect.mem_set_unit]
  exact Iff.rfl

/-- Row r of the result lies in the block of point r / 2000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_2 _, ?_⟩
  rw [mem_blk]
  obtain ⟨e0, e1, e2, e3, e4, e5⟩ := idx_facts ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 64 ≤ (i 1).val ∧ (i 1).val < win0_2.index _ (1 : Fin 2) * 64 + 64
    rw [e5]; omega

/-- The array the region leaves: the features as the region finds them times the weights. -/
theorem final (c : Dev nD) :
    (dat0 V c).arrAt 2 cfg0.N = Cert.Spec.lin128 (V c main_arg0) (V c main_arg2) :=
  (dat0 V c).arrAt_eq_of_cover 2 _ (fun t _ => flushed_eq V c t) cover

end Cert.KernelIdeal.Dense0

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.RefLayers.lean ====
/-
  The reference's stages against the layers of the specification.

  Each of the reference's three matrix products is, at (r, q), the sum over k of the left operand at (r, k) times
  the right operand at (k, q). Each of its two normalisation layers is a chain of broadcasts and pointwise
  operations that reads, at node r and feature j, the aggregate and the dense product at (r, j), the inverse
  root degree at r and the five parameters at j; the kernel's column and rows are reshapes of the same vectors,
  and a reshape of a vector to a column or a row reads the vector at the node, or at the feature. The last layer
  is the same at width one, with the logistic function spelt as 1 / (1 + exp (- x)).
-/
import proofs.«137989_j41266045780998_1_alg».proof.Proof.Gen.ReferenceIdeal.Read
import proofs.«137989_j41266045780998_1_alg».proof.Proof.Spec
import proofs.«137989_j41266045780998_1_alg».proof.Proof.LibColumns
import proofs.«137989_j41266045780998_1_alg».proof.Proof.LibRowCast
import Idealize.ShloMosaic.Lib.Pipeline.Value
import Idealize.ShloMosaic.Lib.ValueIdx

set_option maxRecDepth 16384

noncomputable section

open scoped BigOperators
open Idealize.ShloMosaic Idealize.ShloMosaic.ValueIdx

namespace Cert.ReferenceIdeal.Layers

open Cert.ReferenceIdeal Cert.ReferenceIdeal.Read Cert.RowCast

/-! ## The three matrix products -/

theorem dot128 (x0 : (⟨S100000x128, .f32⟩ : BufTy).Contents (Elt Ideal)) (x2 : (⟨S128x64, .f32⟩ : BufTy).Contents (Elt Ideal)) :
    val_main_v11 (F := Ideal) x0 x2 = Cert.Spec.lin128 x0 x2 := by
  funext i
  rw [val_main_v11_apply]
  unfold Cert.Spec.lin128
  refine Finset.sum_congr rfl fun k _ => ?_
  have el : lidx_main_v11 i k = ix2 (i 0) k := funext fun a => match a with | ⟨0, _⟩ => rfl | ⟨1, _⟩ => rfl
  have er : ridx_main_v11 i k = ix2 k (i 1) := funext fun a => match a with | ⟨0, _⟩ => rfl | ⟨1, _⟩ => rfl
  rw [el, er]
  rfl

theorem dot64 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 x8 x9 x10 x11 : (⟨S64, .f32⟩ : BufTy).Contents (Elt Ideal)) (x4 : (⟨S64x64, .f32⟩ : BufTy).Contents (Elt Ideal)) :
    val_main_v64 (F := Ideal) x0 x1 x2 x3 x4 x8 x9 x10 x11 = Cert.Spec.lin64 (val_main_v63 (F := Ideal) x0 x1 x2 x3 x8 x9 x10 x11) x4 := by
  funext i
  rw [val_main_v64_apply]
  unfold Cert.Spec.lin64
  refine Finset.sum_congr rfl fun k _ => ?_
  have el : lidx_main_v64 i k = ix2 (i 0) k := funext fun a => match a with | ⟨0, _⟩ => rfl | ⟨1, _⟩ => rfl
  have er : ridx_main_v64 i k = ix2 k (i 1) := funext fun a => match a with | ⟨0, _⟩ => rfl | ⟨1, _⟩ => rfl
  rw [el, er]
  rfl

theorem dot1 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 x8 x9 x10 x11 x12 x13 x14 x15 : (⟨S64, .f32⟩ : BufTy).Contents (Elt Ideal)) (x6 : (⟨S64x1, .f32⟩ : BufTy).Contents (Elt Ideal)) :
    val_main_v117 (F := Ideal) x0 x1 x2 x3 x4 x5 x6 x8 x9 x10 x11 x12 x13 x14 x15 = Cert.Spec.lin1 (val_main_v116 (F := Ideal) x0 x1 x2 x3 x4 x5 x8 x9 x10 x11 x12 x13 x14 x15) x6 := by
  funext i
  rw [val_main_v117_apply]
  unfold Cert.Spec.lin1
  refine Finset.sum_congr rfl fun k _ => ?_
  have el : lidx_main_v117 i k = ix2 (i 0) k := funext fun a => match a with | ⟨0, _⟩ => rfl | ⟨1, _⟩ => rfl
  have er : ridx_main_v117 i k = ix2 k (i 1) := funext fun a => match a with | ⟨0, _⟩ => rfl | ⟨1, _⟩ => rfl
  rw [el, er]
  rfl

/-! ## The two normalisation layers and the logistic layer

Each proof reads the reference's stage down to the aggregate, the dense product, the inverse root degree and the
parameters at the index (one stage per step, outermost first), reads the specification's reshaped column and
rows at the same node and feature, names those entries, and compares the two arithmetic expressions. -/

/-- The first layer: the specification's combination of the first product, its aggregate, the column of inverse
    root degrees and the five parameter rows is the reference's stage after the rectifier. -/
theorem layer1 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 x8 x9 x10 x11 : (⟨S64, .f32⟩ : BufTy).Contents (Elt Ideal))
    (hd : S100000.ShapeCasts S100000x1) (hr : S64.ShapeCasts S1x64) :
    Cert.Spec.bnRelu (val_main_v11 (F := Ideal) x0 x2) (val_main_v39 (F := Ideal) x0 x1 x2)
        (shapeCast S100000x1 (val_main_v10 (F := Ideal) x1) hd)
        (shapeCast S1x64 x3 hr) (shapeCast S1x64 x8 hr) (shapeCast S1x64 x9 hr) (shapeCast S1x64 x10 hr) (shapeCast S1x64 x11 hr)
      = val_main_v63 (F := Ideal) x0 x1 x2 x3 x8 x9 x10 x11 := by
  funext i
  obtain ⟨r, j, rfl⟩ : ∃ (r : Fin 100000) (j : Fin 64), i = ix2 r j := ⟨i 0, i 1, eq_ix2 i⟩
  have ed : idx_main_v41 (idx_main_v42 (ix2 r j)) = ix1 r := funext fun a => match a with | ⟨0, _⟩ => rfl
  have eb : idx_main_v45 (idx_main_v46 (ix2 r j)) = ix1 j := funext fun a => match a with | ⟨0, _⟩ => rfl
  have em : idx_main_v48 (idx_main_v49 (ix2 r j)) = ix1 j := funext fun a => match a with | ⟨0, _⟩ => rfl
  have es : idx_main_v54 (idx_main_v55 (ix2 r j)) = ix1 j := funext fun a => match a with | ⟨0, _⟩ => rfl
  have eg : idx_main_v57 (idx_main_v58 (ix2 r j)) = ix1 j := funext fun a => match a with | ⟨0, _⟩ => rfl
  have ee : idx_main_v60 (idx_main_v61 (ix2 r j)) = ix1 j := funext fun a => match a with | ⟨0, _⟩ => rfl
  rw [val_main_v63_apply, val_main_call0_v0_apply, val_main_call0_cst_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_cst_8_apply, val_main_v50_apply, val_main_v49_apply, val_main_v48_apply, val_main_v47_apply, val_main_v46_apply, val_main_v45_apply, val_main_v44_apply, val_main_v43_apply, val_main_v42_apply, val_main_v41_apply, val_main_v40_apply, ed, eb, em, es, eg, ee]
  unfold Cert.Spec.bnRelu Cert.Spec.pre64
  rw [ix2_at0, ix2_at1]
  rw [Cert.Columns.shapeCast_a_a1_apply, shapeCast_row_apply, shapeCast_row_apply, shapeCast_row_apply, shapeCast_row_apply, shapeCast_row_apply]
  generalize val_main_v39 (F := Ideal) x0 x1 x2 (ix2 r j) = AGG
  generalize val_main_v11 (F := Ideal) x0 x2 (ix2 r j) = H
  generalize val_main_v10 (F := Ideal) x1 (ix1 r) = D
  generalize x3 (ix1 j) = P0
  generalize x8 (ix1 j) = P1
  generalize x9 (ix1 j) = P2
  generalize x10 (ix1 j) = P3
  generalize x11 (ix1 j) = P4
  rfl

/-- The second layer, the same with its own product, aggregate and parameters. -/
theorem layer2 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 x8 x9 x10 x11 x12 x13 x14 x15 : (⟨S64, .f32⟩ : BufTy).Contents (Elt Ideal))
    (hd : S100000.ShapeCasts S100000x1) (hr : S64.ShapeCasts S1x64) :
    Cert.Spec.bnRelu (val_main_v64 (F := Ideal) x0 x1 x2 x3 x4 x8 x9 x10 x11) (val_main_v92 (F := Ideal) x0 x1 x2 x3 x4 x8 x9 x10 x11)
        (shapeCast S100000x1 (val_main_v10 (F := Ideal) x1) hd)
        (shapeCast S1x64 x5 hr) (shapeCast S1x64 x12 hr) (shapeCast S1x64 x13 hr) (shapeCast S1x64 x14 hr) (shapeCast S1x64 x15 hr)
      = val_main_v116 (F := Ideal) x0 x1 x2 x3 x4 x5 x8 x9 x10 x11 x12 x13 x14 x15 := by
  funext i
  obtain ⟨r, j, rfl⟩ : ∃ (r : Fin 100000) (j : Fin 64), i = ix2 r j := ⟨i 0, i 1, eq_ix2 i⟩
  have ed : idx_main_v94 (idx_main_v95 (ix2 r j)) = ix1 r := funext fun a => match a with | ⟨0, _⟩ => rfl
  have eb : idx_main_v98 (idx_main_v99 (ix2 r j)) = ix1 j := funext fun a => match a with | ⟨0, _⟩ => rfl
  have em : idx_main_v101 (idx_main_v102 (ix2 r j)) = ix1 j := funext fun a => match a with | ⟨0, _⟩ => rfl
  have es : idx_main_v107 (idx_main_v108 (ix2 r j)) = ix1 j := funext fun a => match a with | ⟨0, _⟩ => rfl
  have eg : idx_main_v110 (idx_main_v111 (ix2 r j)) = ix1 j := funext fun a => match a with | ⟨0, _⟩ => rfl
  have ee : idx_main_v113 (idx_main_v114 (ix2 r j)) = ix1 j := funext fun a => match a with | ⟨0, _⟩ => rfl
  rw [val_main_v116_apply, val_main_call1_v0_apply, val_main_call1_cst_apply, val_main_v115_apply, val_main_v114_apply, val_main_v113_apply, val_main_v112_apply, val_main_v111_apply, val_main_v110_apply, val_main_v109_apply, val_main_v108_apply, val_main_v107_apply, val_main_v106_apply, val_main_v105_apply, val_main_v104_apply, val_main_cst_16_apply, val_main_v103_apply, val_main_v102_apply, val_main_v101_apply, val_main_v100_apply, val_main_v99_apply, val_main_v98_apply, val_main_v97_apply, val_main_v96_apply, val_main_v95_apply, val_main_v94_apply, val_main_v93_apply, ed, eb, em, es, eg, ee]
  unfold Cert.Spec.bnRelu Cert.Spec.pre64
  rw [ix2_at0, ix2_at1]
  rw [Cert.Columns.shapeCast_a_a1_apply, shapeCast_row_apply, shapeCast_row_apply, shapeCast_row_apply, shapeCast_row_apply, shapeCast_row_apply]
  generalize val_main_v92 (F := Ideal) x0 x1 x2 x3 x4 x8 x9 x10 x11 (ix2 r j) = AGG
  generalize val_main_v64 (F := Ideal) x0 x1 x2 x3 x4 x8 x9 x10 x11 (ix2 r j) = H
  generalize val_main_v10 (F := Ideal) x1 (ix1 r) = D
  generalize x5 (ix1 j) = P0
  generalize x12 (ix1 j) = P1
  generalize x13 (ix1 j) = P2
  generalize x14 (ix1 j) = P3
  generalize x15 (ix1 j) = P4
  rfl

/-- The last layer at width one: the logistic combination is the reference's result. -/
theorem layer3 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (x8 x9 x10 x11 x12 x13 x14 x15 : (⟨S64, .f32⟩ : BufTy).Contents (Elt Ideal))
    (hd : S100000.ShapeCasts S100000x1) (h1 : S1.ShapeCasts S1x1) :
    Cert.Spec.logistic1 (val_main_v117 (F := Ideal) x0 x1 x2 x3 x4 x5 x6 x8 x9 x10 x11 x12 x13 x14 x15) (val_main_v144 (F := Ideal) x0 x1 x2 x3 x4 x5 x6 x8 x9 x10 x11 x12 x13 x14 x15)
        (shapeCast S100000x1 (val_main_v10 (F := Ideal) x1) hd) (shapeCast S1x1 x7 h1)
      = val_main_v157 (F := Ideal) x0 x1 x2 x3 x4 x5 x6 x7 x8 x9 x10 x11 x12 x13 x14 x15 := by
  funext i
  obtain ⟨r, u, rfl⟩ : ∃ (r : Fin 100000) (u : Fin 1), i = ix2 r u := ⟨i 0, i 1, eq_ix2 i⟩
  obtain rfl : u = 0 := Subsingleton.elim _ _
  have ed : idx_main_v146 (ix2 r (0 : Fin 1)) = ix1 r := funext fun a => match a with | ⟨0, _⟩ => rfl
  have eb : idx_main_v149 (idx_main_v150 (ix2 r (0 : Fin 1))) = ix1 (0 : Fin 1) := funext fun a => match a with | ⟨0, _⟩ => rfl
  rw [val_main_v157_apply, val_main_v156_apply, val_main_cst_25_apply, val_main_v155_apply, val_main_v154_apply, val_main_cst_24_apply, val_main_v153_apply, val_main_v152_apply, val_main_v151_apply, val_main_v150_apply, val_main_v149_apply, val_main_v148_apply, val_main_v147_apply, val_main_v146_apply, val_main_v145_apply, ed, eb]
  unfold Cert.Spec.logistic1 Cert.Spec.pre1
  rw [Cert.Columns.shapeCast_a_a1_apply, shapeCast_row_apply]
  generalize val_main_v144 (F := Ideal) x0 x1 x2 x3 x4 x5 x6 x8 x9 x10 x11 x12 x13 x14 x15 (ix2 r (0 : Fin 1)) = AGG
  generalize val_main_v117 (F := Ideal) x0 x1 x2 x3 x4 x5 x6 x8 x9 x10 x11 x12 x13 x14 x15 (ix2 r (0 : Fin 1)) = H
  generalize val_main_v10 (F := Ideal) x1 (ix1 r) = D
  generalize x7 (ix1 (0 : Fin 1)) = B
  rfl

end Cert.ReferenceIdeal.Layers

end
-- ==== Proof.ChainA.lean ====
/-
  What the buffers hold at the first three boundaries of the idealized kernel's program, as functions of the
  launch contents of the sixteen arguments; every value is written with the reference's own stage functions, so
  that the two programs meet stage by stage.

  After the first stretch of host operations: the sources and destinations of the edges (rows 0 and 1 of the
  edge array), the inverse root degrees (one plus the number of edges into a node, under the reciprocal square
  root) and their column [100000, 1]; no operation writes an argument. The first region leaves the first dense
  product and touches nothing else that is read later. The second stretch gathers that product along the edges,
  scales each message by the two inverse root degrees of its edge and sums the messages at their destinations:
  the same operations as the reference's, applied to equal operands; it also reshapes five parameter vectors
  to rows.
-/
import proofs.«137989_j41266045780998_1_alg».proof.Proof.Gen.KernelIdeal.Frame
import proofs.«137989_j41266045780998_1_alg».proof.Proof.Gen.ReferenceIdeal.Read
import proofs.«137989_j41266045780998_1_alg».proof.Proof.Dense0
import proofs.«137989_j41266045780998_1_alg».proof.Proof.RefLayers
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg) (c : Dev nD)

/-! ## After the first stretch: no operation writes an argument; the edges' ends, the inverse root degrees -/

theorem s1_arg0 : W1 m ρ c (Proc.devRef .tc main_arg0) = (m ((c.tc : Thread nD τ).loc main_arg0)) := by
  show StableHlo.after hostOps0 (W0 m ρ c) (Proc.devRef .tc main_arg0) = _
  after_results_simp <;> rfl
theorem s1_arg2 : W1 m ρ c (Proc.devRef .tc main_arg2) = (m ((c.tc : Thread nD τ).loc main_arg2)) := by
  show StableHlo.after hostOps0 (W0 m ρ c) (Proc.devRef .tc main_arg2) = _
  after_results_simp <;> rfl
theorem s1_arg3 : W1 m ρ c (Proc.devRef .tc main_arg3) = (m ((c.tc : Thread nD τ).loc main_arg3)) := by
  show StableHlo.after hostOps0 (W0 m ρ c) (Proc.devRef .tc main_arg3) = _
  after_results_simp <;> rfl
theorem s1_arg4 : W1 m ρ c (Proc.devRef .tc main_arg4) = (m ((c.tc : Thread nD τ).loc main_arg4)) := by
  show StableHlo.after hostOps0 (W0 m ρ c) (Proc.devRef .tc main_arg4) = _
  after_results_simp <;> rfl
theorem s1_arg5 : W1 m ρ c (Proc.devRef .tc main_arg5) = (m ((c.tc : Thread nD τ).loc main_arg5)) := by
  show StableHlo.after hostOps0 (W0 m ρ c) (Proc.devRef .tc main_arg5) = _
  after_results_simp <;> rfl
theorem s1_arg6 : W1 m ρ c (Proc.devRef .tc main_arg6) = (m ((c.tc : Thread nD τ).loc main_arg6)) := by
  show StableHlo.after hostOps0 (W0 m ρ c) (Proc.devRef .tc main_arg6) = _
  after_results_simp <;> rfl
theorem s1_arg7 : W1 m ρ c (Proc.devRef .tc main_arg7) = (m ((c.tc : Thread nD τ).loc main_arg7)) := by
  show StableHlo.after hostOps0 (W0 m ρ c) (Proc.devRef .tc main_arg7) = _
  after_results_simp <;> rfl
theorem s1_arg8 : W1 m ρ c (Proc.devRef .tc main_arg8) = (m ((c.tc : Thread nD τ).loc main_arg8)) := by
  show StableHlo.after hostOps0 (W0 m ρ c) (Proc.devRef .tc main_arg8) = _
  after_results_simp <;> rfl
theorem s1_arg9 : W1 m ρ c (Proc.devRef .tc main_arg9) = (m ((c.tc : Thread nD τ).loc main_arg9)) := by
  show StableHlo.after hostOps0 (W0 m ρ c) (Proc.devRef .tc main_arg9) = _
  after_results_simp <;> rfl
theorem s1_arg10 : W1 m ρ c (Proc.devRef .tc main_arg10) = (m ((c.tc : Thread nD τ).loc main_arg10)) := by
  show StableHlo.after hostOps0 (W0 m ρ c) (Proc.devRef .tc main_arg10) = _
  after_results_simp <;> rfl
theorem s1_arg11 : W1 m ρ c (Proc.devRef .tc main_arg11) = (m ((c.tc : Thread nD τ).loc main_arg11)) := by
  show StableHlo.after hostOps0 (W0 m ρ c) (Proc.devRef .tc main_arg11) = _
  after_results_simp <;> rfl
theorem s1_arg12 : W1 m ρ c (Proc.devRef .tc main_arg12) = (m ((c.tc : Thread nD τ).loc main_arg12)) := by
  show StableHlo.after hostOps0 (W0 m ρ c) (Proc.devRef .tc main_arg12) = _
  after_results_simp <;> rfl
theorem s1_arg13 : W1 m ρ c (Proc.devRef .tc main_arg13) = (m ((c.tc : Thread nD τ).loc main_arg13)) := by
  show StableHlo.after hostOps0 (W0 m ρ c) (Proc.devRef .tc main_arg13) = _
  after_results_simp <;> rfl
theorem s1_arg14 : W1 m ρ c (Proc.devRef .tc main_arg14) = (m ((c.tc : Thread nD τ).loc main_arg14)) := by
  show StableHlo.after hostOps0 (W0 m ρ c) (Proc.devRef .tc main_arg14) = _
  after_results_simp <;> rfl
theorem s1_arg15 : W1 m ρ c (Proc.devRef .tc main_arg15) = (m ((c.tc : Thread nD τ).loc main_arg15)) := by
  show StableHlo.after hostOps0 (W0 m ρ c) (Proc.devRef .tc main_arg15) = _
  after_results_simp <;> rfl
theorem s1_v1 : W1 m ρ c (Proc.devRef .tc main_v1) = (Cert.ReferenceIdeal.Read.val_main_v1 (F := Ideal) (m ((c.tc : Thread nD τ).loc main_arg1))) := by
  generalize hR : (Cert.ReferenceIdeal.Read.val_main_v1 (F := Ideal) (m ((c.tc : Thread nD τ).loc main_arg1))) = R
  show StableHlo.after hostOps0 (W0 m ρ c) (Proc.devRef .tc main_v1) = R
  after_results_simp
  rw [← hR]
  rfl
theorem s1_v3 : W1 m ρ c (Proc.devRef .tc main_v3) = (Cert.ReferenceIdeal.Read.val_main_v3 (F := Ideal) (m ((c.tc : Thread nD τ).loc main_arg1))) := by
  generalize hR : (Cert.ReferenceIdeal.Read.val_main_v3 (F := Ideal) (m ((c.tc : Thread nD τ).loc main_arg1))) = R
  show StableHlo.after hostOps0 (W0 m ρ c) (Proc.devRef .tc main_v3) = R
  after_results_simp
  rw [← hR]
  rfl
theorem s1_v10 : W1 m ρ c (Proc.devRef .tc main_v10) = (Cert.ReferenceIdeal.Read.val_main_v10 (F := Ideal) (m ((c.tc : Thread nD τ).loc main_arg1))) := by
  generalize hR : (Cert.ReferenceIdeal.Read.val_main_v10 (F := Ideal) (m ((c.tc : Thread nD τ).loc main_arg1))) = R
  show StableHlo.after hostOps0 (W0 m ρ c) (Proc.devRef .tc main_v10) = R
  after_results_simp
  rw [← hR]
  rfl
theorem s1_v11 : W1 m ρ c (Proc.devRef .tc main_v11) = (shapeCast S100000x1 (Cert.ReferenceIdeal.Read.val_main_v10 (F := Ideal) (m ((c.tc : Thread nD τ).loc main_arg1))) shapeCasts_S100000_S100000x1) := by
  generalize hR : (shapeCast S100000x1 (Cert.ReferenceIdeal.Read.val_main_v10 (F := Ideal) (m ((c.tc : Thread nD τ).loc main_arg1))) shapeCasts_S100000_S100000x1) = R
  show StableHlo.after hostOps0 (W0 m ρ c) (Proc.devRef .tc main_v11) = R
  after_results_simp
  rw [← hR]
  rfl

/-! ## After the first region: the first dense product; the other buffers as they were -/

/-- The features times the first weights, in the reference's spelling. -/
theorem s2_v12 : W2 m ρ c (Proc.devRef .tc main_v12) = (Cert.ReferenceIdeal.Read.val_main_v11 (F := Ideal) (m ((c.tc : Thread nD τ).loc main_arg0)) (m ((c.tc : Thread nD τ).loc main_arg2))) := by
  refine ((W2_arr m ρ c 2).trans (Cert.KernelIdeal.Dense0.final (V1 m ρ) c)).trans ?_
  show Cert.Spec.lin128 (W1 m ρ c (Proc.devRef .tc main_arg0)) (W1 m ρ c (Proc.devRef .tc main_arg2)) = _
  rw [s1_arg0 m ρ c, s1_arg2 m ρ c]
  exact (Cert.ReferenceIdeal.Layers.dot128 _ _).symm
theorem s2_v1 : W2 m ρ c (Proc.devRef .tc main_v1) = (Cert.ReferenceIdeal.Read.val_main_v1 (F := Ideal) (m ((c.tc : Thread nD τ).loc main_arg1))) :=
  (W2_of_ne m ρ c main_v1 (by decide)).trans (s1_v1 m ρ c)
theorem s2_v3 : W2 m ρ c (Proc.devRef .tc main_v3) = (Cert.ReferenceIdeal.Read.val_main_v3 (F := Ideal) (m ((c.tc : Thread nD τ).loc main_arg1))) :=
  (W2_of_ne m ρ c main_v3 (by decide)).trans (s1_v3 m ρ c)
theorem s2_v10 : W2 m ρ c (Proc.devRef .tc main_v10) = (Cert.ReferenceIdeal.Read.val_main_v10 (F := Ideal) (m ((c.tc : Thread nD τ).loc main_arg1))) :=
  (W2_of_ne m ρ c main_v10 (by decide)).trans (s1_v10 m ρ c)
theorem s2_v11 : W2 m ρ c (Proc.devRef .tc main_v11) = (shapeCast S100000x1 (Cert.ReferenceIdeal.Read.val_main_v10 (F := Ideal) (m ((c.tc : Thread nD τ).loc main_arg1))) shapeCasts_S100000_S100000x1) :=
  (W2_of_ne m ρ c main_v11 (by decide)).trans (s1_v11 m ρ c)
theorem s2_arg3 : W2 m ρ c (Proc.devRef .tc main_arg3) = (m ((c.tc : Thread nD τ).loc main_arg3)) :=
  (W2_of_ne m ρ c main_arg3 (by decide)).trans (s1_arg3 m ρ c)
theorem s2_arg4 : W2 m ρ c (Proc.devRef .tc main_arg4) = (m ((c.tc : Thread nD τ).loc main_arg4)) :=
  (W2_of_ne m ρ c main_arg4 (by decide)).trans (s1_arg4 m ρ c)
theorem s2_arg5 : W2 m ρ c (Proc.devRef .tc main_arg5) = (m ((c.tc : Thread nD τ).loc main_arg5)) :=
  (W2_of_ne m ρ c main_arg5 (by decide)).trans (s1_arg5 m ρ c)
theorem s2_arg6 : W2 m ρ c (Proc.devRef .tc main_arg6) = (m ((c.tc : Thread nD τ).loc main_arg6)) :=
  (W2_of_ne m ρ c main_arg6 (by decide)).trans (s1_arg6 m ρ c)
theorem s2_arg7 : W2 m ρ c (Proc.devRef .tc main_arg7) = (m ((c.tc : Thread nD τ).loc main_arg7)) :=
  (W2_of_ne m ρ c main_arg7 (by decide)).trans (s1_arg7 m ρ c)
theorem s2_arg8 : W2 m ρ c (Proc.devRef .tc main_arg8) = (m ((c.tc : Thread nD τ).loc main_arg8)) :=
  (W2_of_ne m ρ c main_arg8 (by decide)).trans (s1_arg8 m ρ c)
theorem s2_arg9 : W2 m ρ c (Proc.devRef .tc main_arg9) = (m ((c.tc : Thread nD τ).loc main_arg9)) :=
  (W2_of_ne m ρ c main_arg9 (by decide)).trans (s1_arg9 m ρ c)
theorem s2_arg10 : W2 m ρ c (Proc.devRef .tc main_arg10) = (m ((c.tc : Thread nD τ).loc main_arg10)) :=
  (W2_of_ne m ρ c main_arg10 (by decide)).trans (s1_arg10 m ρ c)
theorem s2_arg11 : W2 m ρ c (Proc.devRef .tc main_arg11) = (m ((c.tc : Thread nD τ).loc main_arg11)) :=
  (W2_of_ne m ρ c main_arg11 (by decide)).trans (s1_arg11 m ρ c)
theorem s2_arg12 : W2 m ρ c (Proc.devRef .tc main_arg12) = (m ((c.tc : Thread nD τ).loc main_arg12)) :=
  (W2_of_ne m ρ c main_arg12 (by decide)).trans (s1_arg12 m ρ c)
theorem s2_arg13 : W2 m ρ c (Proc.devRef .tc main_arg13) = (m ((c.tc : Thread nD τ).loc main_arg13)) :=
  (W2_of_ne m ρ c main_arg13 (by decide)).trans (s1_arg13 m ρ c)
theorem s2_arg14 : W2 m ρ c (Proc.devRef .tc main_arg14) = (m ((c.tc : Thread nD τ).loc main_arg14)) :=
  (W2_of_ne m ρ c main_arg14 (by decide)).trans (s1_arg14 m ρ c)
theorem s2_arg15 : W2 m ρ c (Proc.devRef .tc main_arg15) = (m ((c.tc : Thread nD τ).loc main_arg15)) :=
  (W2_of_ne m ρ c main_arg15 (by decide)).trans (s1_arg15 m ρ c)

/-! ## After the second stretch: the first aggregate and the first layer's parameter rows -/

theorem s3_v1 : W3 m ρ c (Proc.devRef .tc main_v1) = (Cert.ReferenceIdeal.Read.val_main_v1 (F := Ideal) (m ((c.tc : Thread nD τ).loc main_arg1))) := by
  refine Eq.trans ?_ (s2_v1 m ρ c)
  show StableHlo.after hostOps1 (W2 m ρ c) (Proc.devRef .tc main_v1) = _
  after_results_simp
theorem s3_v3 : W3 m ρ c (Proc.devRef .tc main_v3) = (Cert.ReferenceIdeal.Read.val_main_v3 (F := Ideal) (m ((c.tc : Thread nD τ).loc main_arg1))) := by
  refine Eq.trans ?_ (s2_v3 m ρ c)
  show StableHlo.after hostOps1 (W2 m ρ c) (Proc.devRef .tc main_v3) = _
  after_results_simp
theorem s3_v10 : W3 m ρ c (Proc.devRef .tc main_v10) = (Cert.ReferenceIdeal.Read.val_main_v10 (F := Ideal) (m ((c.tc : Thread nD τ).loc main_arg1))) := by
  refine Eq.trans ?_ (s2_v10 m ρ c)
  show StableHlo.after hostOps1 (W2 m ρ c) (Proc.devRef .tc main_v10) = _
  after_results_simp
theorem s3_v11 : W3 m ρ c (Proc.devRef .tc main_v11) = (shapeCast S100000x1 (Cert.ReferenceIdeal.Read.val_main_v10 (F := Ideal) (m ((c.tc : Thread nD τ).loc main_arg1))) shapeCasts_S100000_S100000x1) := by
  refine Eq.trans ?_ (s2_v11 m ρ c)
  show StableHlo.after hostOps1 (W2 m ρ c) (Proc.devRef .tc main_v11) = _
  after_results_simp
theorem s3_v12 : W3 m ρ c (Proc.devRef .tc main_v12) = (Cert.ReferenceIdeal.Read.val_main_v11 (F := Ideal) (m ((c.tc : Thread nD τ).loc main_arg0)) (m ((c.tc : Thread nD τ).loc main_arg2))) := by
  refine Eq.trans ?_ (s2_v12 m ρ c)
  show StableHlo.after hostOps1 (W2 m ρ c) (Proc.devRef .tc main_v12) = _
  after_results_simp
theorem s3_arg4 : W3 m ρ c (Proc.devRef .tc main_arg4) = (m ((c.tc : Thread nD τ).loc main_arg4)) := by
  refine Eq.trans ?_ (s2_arg4 m ρ c)
  show StableHlo.after hostOps1 (W2 m ρ c) (Proc.devRef .tc main_arg4) = _
  after_results_simp
theorem s3_arg5 : W3 m ρ c (Proc.devRef .tc main_arg5) = (m ((c.tc : Thread nD τ).loc main_arg5)) := by
  refine Eq.trans ?_ (s2_arg5 m ρ c)
  show StableHlo.after hostOps1 (W2 m ρ c) (Proc.devRef .tc main_arg5) = _
  after_results_simp
theorem s3_arg6 : W3 m ρ c (Proc.devRef .tc main_arg6) = (m ((c.tc : Thread nD τ).loc main_arg6)) := by
  refine Eq.trans ?_ (s2_arg6 m ρ c)
  show StableHlo.after hostOps1 (W2 m ρ c) (Proc.devRef .tc main_arg6) = _
  after_results_simp
theorem s3_arg7 : W3 m ρ c (Proc.devRef .tc main_arg7) = (m ((c.tc : Thread nD τ).loc main_arg7)) := by
  refine Eq.trans ?_ (s2_arg7 m ρ c)
  show StableHlo.after hostOps1 (W2 m ρ c) (Proc.devRef .tc main_arg7) = _
  after_results_simp
theorem s3_arg12 : W3 m ρ c (Proc.devRef .tc main_arg12) = (m ((c.tc : Thread nD τ).loc main_arg12)) := by
  refine Eq.trans ?_ (s2_arg12 m ρ c)
  show StableHlo.after hostOps1 (W2 m ρ c) (Proc.devRef .tc main_arg12) = _
  after_results_simp
theorem s3_arg13 : W3 m ρ c (Proc.devRef .tc main_arg13) = (m ((c.tc : Thread nD τ).loc main_arg13)) := by
  refine Eq.trans ?_ (s2_arg13 m ρ c)
  show StableHlo.after hostOps1 (W2 m ρ c) (Proc.devRef .tc main_arg13) = _
  after_results_simp
theorem s3_arg14 : W3 m ρ c (Proc.devRef .tc main_arg14) = (m ((c.tc : Thread nD τ).loc main_arg14)) := by
  refine Eq.trans ?_ (s2_arg14 m ρ c)
  show StableHlo.after hostOps1 (W2 m ρ c) (Proc.devRef .tc main_arg14) = _
  after_results_simp
theorem s3_arg15 : W3 m ρ c (Proc.devRef .tc main_arg15) = (m ((c.tc : Thread nD τ).loc main_arg15)) := by
  refine Eq.trans ?_ (s2_arg15 m ρ c)
  show StableHlo.after hostOps1 (W2 m ρ c) (Proc.devRef .tc main_arg15) = _
  after_results_simp
/-- The messages along the edges summed at their destinations: the reference's aggregate of the first product. -/
theorem s3_v40 : W3 m ρ c (Proc.devRef .tc main_v40) = (Cert.ReferenceIdeal.Read.val_main_v39 (F := Ideal) (m ((c.tc : Thread nD τ).loc main_arg0)) (m ((c.tc : Thread nD τ).loc main_arg1)) (m ((c.tc : Thread nD τ).loc main_arg2))) := by
  generalize hR : (Cert.ReferenceIdeal.Read.val_main_v39 (F := Ideal) (m ((c.tc : Thread nD τ).loc main_arg0)) (m ((c.tc : Thread nD τ).loc main_arg1)) (m ((c.tc : Thread nD τ).loc main_arg2))) = R
  show StableHlo.after hostOps1 (W2 m ρ c) (Proc.devRef .tc main_v40) = R
  after_results_simp
  rw [s2_v12 m ρ c, s2_v1 m ρ c, s2_v3 m ρ c, s2_v10 m ρ c, ← hR]
  rfl
theorem s3_v41 : W3 m ρ c (Proc.devRef .tc main_v41) = (shapeCast S1x64 (m ((c.tc : Thread nD τ).loc main_arg3)) shapeCasts_S64_S1x64) := by
  generalize hR : (shapeCast S1x64 (m ((c.tc : Thread nD τ).loc main_arg3)) shapeCasts_S64_S1x64) = R
  show StableHlo.after hostOps1 (W2 m ρ c) (Proc.devRef .tc main_v41) = R
  after_results_simp
  rw [s2_arg3 m ρ c, ← hR]
  rfl
theorem s3_v42 : W3 m ρ c (Proc.devRef .tc main_v42) = (shapeCast S1x64 (m ((c.tc : Thread nD τ).loc main_arg8)) shapeCasts_S64_S1x64) := by
  generalize hR : (shapeCast S1x64 (m ((c.tc : Thread nD τ).loc main_arg8)) shapeCasts_S64_S1x64) = R
  show StableHlo.after hostOps1 (W2 m ρ c) (Proc.devRef .tc main_v42) = R
  after_results_simp
  rw [s2_arg8 m ρ c, ← hR]
  rfl
theorem s3_v43 : W3 m ρ c (Proc.devRef .tc main_v43) = (shapeCast S1x64 (m ((c.tc : Thread nD τ).loc main_arg9)) shapeCasts_S64_S1x64) := by
  generalize hR : (shapeCast S1x64 (m ((c.tc : Thread nD τ).loc main_arg9)) shapeCasts_S64_S1x64) = R
  show StableHlo.after hostOps1 (W2 m ρ c) (Proc.devRef .tc main_v43) = R
  after_results_simp
  rw [s2_arg9 m ρ c, ← hR]
  rfl
theorem s3_v44 : W3 m ρ c (Proc.devRef .tc main_v44) = (shapeCast S1x64 (m ((c.tc : Thread nD τ).loc main_arg10)) shapeCasts_S64_S1x64) := by
  generalize hR : (shapeCast S1x64 (m ((c.tc : Thread nD τ).loc main_arg10)) shapeCasts_S64_S1x64) = R
  show StableHlo.after hostOps1 (W2 m ρ c) (Proc.devRef .tc main_v44) = R
  after_results_simp
  rw [s2_arg10 m ρ c, ← hR]
  rfl
theorem s3_v45 : W3 m ρ c (Proc.devRef .tc main_v45) = (shapeCast S1x64 (m ((c.tc : Thread nD τ).loc main_arg11)) shapeCasts_S64_S1x64) := by
  generalize hR : (shapeCast S1x64 (m ((c.tc : Thread nD τ).loc main_arg11)) shapeCasts_S64_S1x64) = R
  show StableHlo.after hostOps1 (W2 m ρ c) (Proc.devRef .tc main_v45) = R
  after_results_simp
  rw [s2_arg11 m ρ c, ← hR]
  rfl

end Cert.KernelIdeal.Chain

end
-- ==== Proof.Norm1.lean ====
/-
  The combination of region 1: at every grid point the body takes 2000 rows of the dense product H and of the
  aggregate A, the same rows of the column d of inverse root degrees, and the five parameter rows, and stores

      max (((((A + H * (d * d)) + b) - mu) * rsqrt (va + eps)) * g + be) 0

  entry by entry, the column broadcast along the features and the rows along the nodes. So the array the region
  leaves is that expression of the whole arrays, at every node and feature.
-/
import proofs.«137989_j41266045780998_1_alg».proof.Proof.Gen.KernelIdeal.Frame
import proofs.«137989_j41266045780998_1_alg».proof.Proof.Spec
import proofs.«137989_j41266045780998_1_alg».proof.Proof.LibColumns
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Norm1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q), from the loaded blocks: the column is read at row p, the parameter rows
    at feature q. -/
theorem pay_apply (d : Vec Ideal S2000x1 .f32) (h agg : Vec Ideal S2000x64 .f32) (b mu va g be : Vec Ideal S1x64 .f32)
    (p : Fin 2000) (q : Fin 64) :
    k1_pay1 (F := Ideal) d h agg b mu va g be (ix2 p q)
      = max ((((((agg (ix2 p q) + h (ix2 p q) * (d (ix2 p (0 : Fin 1)) * d (ix2 p (0 : Fin 1)))) + b (ix2 (0 : Fin 1) q))
            - mu (ix2 (0 : Fin 1) q)) * Ideal.rsqrt (va (ix2 (0 : Fin 1) q) + Ideal.ofBits .f32 0x3727C5AC#32))
            * g (ix2 (0 : Fin 1) q)) + be (ix2 (0 : Fin 1) q))
          (Ideal.ofBits .f32 0x00000000#32) := by
  unfold k1_pay1
  simp only [shapeCast_self, maximumf_apply, addf_apply, mulf_apply, subf_apply, broadcast_apply,
    broadcastTo_1b_ab_apply, Cert.Columns.broadcastTo_a1_ab_apply]
  rfl

/-- The grid's index maps: the three node-indexed inputs and the result move with the point on the node axis; each
    parameter row's one block is the row itself. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

/-- The dense product's block at (p, q) of point t's block is the array at the result block's own index. -/
theorem rd0 (c : Dev nD) (t : Fin cfg1.N) (p : Fin 2000) (q : Fin 64) :
    iblk1 V c 0 t (ix2 p q) = V c main_v12 (((cfg1.win 8).blk t).view.emb (ix2 p q)) := by
  obtain ⟨⟨a0, a1⟩, -, -, -, -, -, -, -, ⟨o0, o1⟩⟩ := idx_facts t
  unfold iblk1
  rw [View.read_apply]
  show V c main_v12 (((cfg1.win 0).blk t).view.emb (ix2 p q)) = _
  refine congrArg (V c main_v12) (funext fun a => Fin.ext ?_)
  match a with
  | ⟨0, _⟩ => show win1_0.index t (0 : Fin 2) * 2000 + 1 * p.val = win1_8.index t (0 : Fin 2) * 2000 + 1 * p.val; omega
  | ⟨1, _⟩ => show win1_0.index t (1 : Fin 2) * 64 + 1 * q.val = win1_8.index t (1 : Fin 2) * 64 + 1 * q.val; omega

/-- The aggregate's block at (p, q) of point t's block is the array at the result block's own index. -/
theorem rd1 (c : Dev nD) (t : Fin cfg1.N) (p : Fin 2000) (q : Fin 64) :
    iblk1 V c 1 t (ix2 p q) = V c main_v40 (((cfg1.win 8).blk t).view.emb (ix2 p q)) := by
  obtain ⟨-, ⟨a0, a1⟩, -, -, -, -, -, -, ⟨o0, o1⟩⟩ := idx_facts t
  unfold iblk1
  rw [View.read_apply]
  show V c main_v40 (((cfg1.win 1).blk t).view.emb (ix2 p q)) = _
  refine congrArg (V c main_v40) (funext fun a => Fin.ext ?_)
  match a with
  | ⟨0, _⟩ => show win1_1.index t (0 : Fin 2) * 2000 + 1 * p.val = win1_8.index t (0 : Fin 2) * 2000 + 1 * p.val; omega
  | ⟨1, _⟩ => show win1_1.index t (1 : Fin 2) * 64 + 1 * q.val = win1_8.index t (1 : Fin 2) * 64 + 1 * q.val; omega

/-- The column's block at row p is the column at the result index' node. -/
theorem rd2 (c : Dev nD) (t : Fin cfg1.N) (p : Fin 2000) (q : Fin 64) :
    iblk1 V c 2 t (ix2 p (0 : Fin 1)) = V c main_v11 (ix2 ((((cfg1.win 8).blk t).view.emb (ix2 p q)) 0) (0 : Fin 1)) := by
  obtain ⟨-, -, ⟨a0, a1⟩, -, -, -, -, -, ⟨o0, o1⟩⟩ := idx_facts t
  unfold iblk1
  rw [View.read_apply]
  show V c main_v11 (((cfg1.win 2).blk t).view.emb (ix2 p (0 : Fin 1))) = _
  refine congrArg (V c main_v11) (funext fun a => Fin.ext ?_)
  match a with
  | ⟨0, _⟩ => show win1_2.index t (0 : Fin 2) * 2000 + 1 * p.val = win1_8.index t (0 : Fin 2) * 2000 + 1 * p.val; omega
  | ⟨1, _⟩ => show win1_2.index t (1 : Fin 2) * 1 + 1 * 0 = 0; omega

/-- The bias row at feature q is the row's entry at the result index' feature. -/
theorem rd3 (c : Dev nD) (t : Fin cfg1.N) (p : Fin 2000) (q : Fin 64) :
    iblk1 V c 3 t (ix2 (0 : Fin 1) q) = V c main_v41 (ix2 (0 : Fin 1) ((((cfg1.win 8).blk t).view.emb (ix2 p q)) 1)) := by
  obtain ⟨-, -, -, ⟨a0, a1⟩, -, -, -, -, ⟨o0, o1⟩⟩ := idx_facts t
  unfold iblk1
  rw [View.read_apply]
  show V c main_v41 (((cfg1.win 3).blk t).view.emb (ix2 (0 : Fin 1) q)) = _
  refine congrArg (V c main_v41) (funext fun a => Fin.ext ?_)
  match a with
  | ⟨0, _⟩ => show win1_3.index t (0 : Fin 2) * 1 + 1 * 0 = 0; omega
  | ⟨1, _⟩ => show win1_3.index t (1 : Fin 2) * 64 + 1 * q.val = win1_8.index t (1 : Fin 2) * 64 + 1 * q.val; omega

/-- The scale row at feature q is the row's entry at the result index' feature. -/
theorem rd4 (c : Dev nD) (t : Fin cfg1.N) (p : Fin 2000) (q : Fin 64) :
    iblk1 V c 4 t (ix2 (0 : Fin 1) q) = V c main_v42 (ix2 (0 : Fin 1) ((((cfg1.win 8).blk t).view.emb (ix2 p q)) 1)) := by
  obtain ⟨-, -, -, -, ⟨a0, a1⟩, -, -, -, ⟨o0, o1⟩⟩ := idx_facts t
  unfold iblk1
  rw [View.read_apply]
  show V c main_v42 (((cfg1.win 4).blk t).view.emb (ix2 (0 : Fin 1) q)) = _
  refine congrArg (V c main_v42) (funext fun a => Fin.ext ?_)
  match a with
  | ⟨0, _⟩ => show win1_4.index t (0 : Fin 2) * 1 + 1 * 0 = 0; omega
  | ⟨1, _⟩ => show win1_4.index t (1 : Fin 2) * 64 + 1 * q.val = win1_8.index t (1 : Fin 2) * 64 + 1 * q.val; omega

/-- The shift row at feature q is the row's entry at the result index' feature. -/
theorem rd5 (c : Dev nD) (t : Fin cfg1.N) (p : Fin 2000) (q : Fin 64) :
    iblk1 V c 5 t (ix2 (0 : Fin 1) q) = V c main_v43 (ix2 (0 : Fin 1) ((((cfg1.win 8).blk t).view.emb (ix2 p q)) 1)) := by
  obtain ⟨-, -, -, -, -, ⟨a0, a1⟩, -, -, ⟨o0, o1⟩⟩ := idx_facts t
  unfold iblk1
  rw [View.read_apply]
  show V c main_v43 (((cfg1.win 5).blk t).view.emb (ix2 (0 : Fin 1) q)) = _
  refine congrArg (V c main_v43) (funext fun a => Fin.ext ?_)
  match a with
  | ⟨0, _⟩ => show win1_5.index t (0 : Fin 2) * 1 + 1 * 0 = 0; omega
  | ⟨1, _⟩ => show win1_5.index t (1 : Fin 2) * 64 + 1 * q.val = win1_8.index t (1 : Fin 2) * 64 + 1 * q.val; omega

/-- The mean row at feature q is the row's entry at the result index' feature. -/
theorem rd6 (c : Dev nD) (t : Fin cfg1.N) (p : Fin 2000) (q : Fin 64) :
    iblk1 V c 6 t (ix2 (0 : Fin 1) q) = V c main_v44 (ix2 (0 : Fin 1) ((((cfg1.win 8).blk t).view.emb (ix2 p q)) 1)) := by
  obtain ⟨-, -, -, -, -, -, ⟨a0, a1⟩, -, ⟨o0, o1⟩⟩ := idx_facts t
  unfold iblk1
  rw [View.read_apply]
  show V c main_v44 (((cfg1.win 6).blk t).view.emb (ix2 (0 : Fin 1) q)) = _
  refine congrArg (V c main_v44) (funext fun a => Fin.ext ?_)
  match a with
  | ⟨0, _⟩ => show win1_6.index t (0 : Fin 2) * 1 + 1 * 0 = 0; omega
  | ⟨1, _⟩ => show win1_6.index t (1 : Fin 2) * 64 + 1 * q.val = win1_8.index t (1 : Fin 2) * 64 + 1 * q.val; omega

/-- The variance row at feature q is the row's entry at the result index' feature. -/
theorem rd7 (c : Dev nD) (t : Fin cfg1.N) (p : Fin 2000) (q : Fin 64) :
    iblk1 V c 7 t (ix2 (0 : Fin 1) q) = V c main_v45 (ix2 (0 : Fin 1) ((((cfg1.win 8).blk t).view.emb (ix2 p q)) 1)) := by
  obtain ⟨-, -, -, -, -, -, -, ⟨a0, a1⟩, ⟨o0, o1⟩⟩ := idx_facts t
  unfold iblk1
  rw [View.read_apply]
  show V c main_v45 (((cfg1.win 7).blk t).view.emb (ix2 (0 : Fin 1) q)) = _
  refine congrArg (V c main_v45) (funext fun a => Fin.ext ?_)
  match a with
  | ⟨0, _⟩ => show win1_7.index t (0 : Fin 2) * 1 + 1 * 0 = 0; omega
  | ⟨1, _⟩ => show win1_7.index t (1 : Fin 2) * 64 + 1 * q.val = win1_8.index t (1 : Fin 2) * 64 + 1 * q.val; omega

/-- What point t writes back is block t of the combination of the whole arrays. -/
theorem flushed_eq (c : Dev nD) (t : Fin cfg1.N) :
    (dat1 V c).flushed 8 t = ((cfg1.win 8).blk t).view.read (Elt Ideal)
      (Cert.Spec.bnRelu (V c main_v12) (V c main_v40) (V c main_v11) (V c main_v41) (V c main_v42) (V c main_v43) (V c main_v44) (V c main_v45)) := by
  show (cfg1.win 8).cut (grid1.coords t) ((dat1 V c).after 8 t) = _
  rw [after1_8]
  unfold out1_8
  rw [View.canon_unit_zero hz]
  simp only [View.ld_unit_zero (S := S2000x64) hz, View.ld_unit_zero (S := S2000x1) hz, View.ld_unit_zero (S := S1x64) hz]
  funext j
  obtain ⟨p, q, rfl⟩ : ∃ (p : Fin 2000) (q : Fin 64), j = ix2 p q := ⟨j 0, j 1, eq_ix2 j⟩
  refine (pay_apply _ _ _ _ _ _ _ _ p q).trans ?_
  show _ = Cert.Spec.bnRelu (V c main_v12) (V c main_v40) (V c main_v11) (V c main_v41) (V c main_v42) (V c main_v43) (V c main_v44) (V c main_v45) (((cfg1.win 8).blk t).view.emb (ix2 p q))
  unfold Cert.Spec.bnRelu Cert.Spec.pre64
  rw [rd0 V c t p q, rd1 V c t p q, rd2 V c t p q, rd3 V c t p q, rd4 V c t p q, rd5 V c t p q, rd6 V c t p q, rd7 V c t p q]

/-- An index of the result array is in point t's block iff each coordinate is in the block's range. -/
theorem mem_blk (t : Fin cfg1.N) (i : S100000x64.Idx) :
    i ∈ ((cfg1.win 8).blk t).view.set ↔ ∀ a : Fin 2, win1_8.index t a * S2000x64.size a ≤ (i a).val ∧ (i a).val < win1_8.index t a * S2000x64.size a + S2000x64.size a := by
  show i ∈ ((View.whole main_v46).slice (win1_8.rect t)).set ↔ _
  rw [View.set_slice_whole, Rect.mem_set_unit]
  exact Iff.rfl

/-- Node r of the result lies in the block of point r / 2000. -/
theorem cover (i : S100000x64.Idx) : ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 50 := N_1
  refine ⟨⟨(i 0).val / 2000, by rw [hN]; omega⟩, flush1_8 _, ?_⟩
  rw [mem_blk]
  obtain ⟨-, -, -, -, -, -, -, -, ⟨o0, o1⟩⟩ := idx_facts ⟨(i 0).val / 2000, by rw [hN]; omega⟩
  intro a
  match a with
  | ⟨0, _⟩ =>
    show win1_8.index _ (0 : Fin 2) * 2000 ≤ (i 0).val ∧ (i 0).val < win1_8.index _ (0 : Fin 2) * 2000 + 2000
    rw [o0]; show (i 0).val / 2000 * 2000 ≤ (i 0).val ∧ (i 0).val < (i 0).val / 2000 * 2000 + 2000; omega
  | ⟨1, _⟩ =>
    show win1_8.index _ (1 : Fin 2) * 64 ≤ (i 1).val ∧ (i 1).val < win1_8.index _ (1 : Fin 2) * 64 + 64
    rw [o1]; omega

/-- The array the region leaves: the combination of the arrays as the region finds them. -/
theorem final (c : Dev nD) :
    (dat1 V c).arrAt 8 cfg1.N
      = Cert.Spec.bnRelu (V c main_v12) (V c main_v40) (V c main_v11) (V c main_v41) (V c main_v42) (V c main_v43) (V c main_v44) (V c main_v45) :=
  (dat1 V c).arrAt_eq_of_cover 8 _ (fun t _ => flushed_eq V c t) cover

end Cert.KernelIdeal.Norm1

end
-- ==== Proof.Dense2.lean ====
/-
  The dense product of region 2: every grid point multiplies its block of 2000 rows of the features by the whole
  weight matrix, so the array the region leaves is the product of the whole feature matrix with the weights,
  row by row. A row r of the result lies in block r / 2000, at row r % 2000 of it; the weights' one block is
  the matrix itself.
-/
import proofs.«137989_j41266045780998_1_alg».proof.Proof.Gen.KernelIdeal.Frame
import proofs.«137989_j41266045780998_1_alg».proof.Proof.Spec
import proofs.«137989_j41266045780998_1_alg».proof.Proof.LibDotRows
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen Cert.Hand

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): row p of the loaded feature block against column q of the loaded weights
    (the roundings to bf16 are the identity on the extended reals, and the accumulator starts at zero). -/
theorem pay_apply (l : Vec Ideal S2000x64 .f32) (r : Vec Ideal S64x64 .f32) (p : Fin 2000) (q : Fin 64) :
    k2_pay1 (F := Ideal) l r (ix2 p q) = ∑ k : Fin 64, l (ix2 p k) * r (ix2 k q) := by
  unfold k2_pay1
  try simp only [shapeCast_self]
  refine (Ideal.matmul_constant_zero_apply dot_S2000x64_S64x64_S2000x64_1_0_0_1_n_n none _ _ (ix2 p q)).trans ?_
  show ∑ c, l (dot_S2000x64_S64x64_S2000x64_1_0_0_1_n_n.lhsIdx (ix2 p q) c) * r (dot_S2000x64_S64x64_S2000x64_1_0_0_1_n_n.rhsIdx (ix2 p q) c) = _
  dot_rows dot_S2000x64_S64x64_S2000x64_1_0_0_1_n_n S2000x64 S64x64 64

/-- The grid's index maps: the features' and the result's block index is the point itself on the row axis, the
    weights' block is block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the whole arrays. -/
theorem flushed_eq (c : Dev nD) (t : Fin cfg2.N) :
    (dat2 V c).flushed 2 t = ((cfg2.win 2).blk t).view.read (Elt Ideal)
      (Cert.Spec.lin64 (V c main_v46) (V c main_arg4)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x64) hz]
  obtain ⟨e0, e1, e2, e3, e4, e5⟩ := idx_facts t
  funext j
  obtain ⟨p, q, rfl⟩ : ∃ (p : Fin 2000) (q : Fin 64), j = ix2 p q := ⟨j 0, j 1, eq_ix2 j⟩
  refine (pay_apply _ _ p q).trans ?_
  show _ = Cert.Spec.lin64 (V c main_v46) (V c main_arg4) (((cfg2.win 2).blk t).view.emb (ix2 p q))
  unfold Cert.Spec.lin64
  refine Finset.sum_congr rfl fun k _ => ?_
  have hx : iblk2 V c 0 t (ix2 p k) = V c main_v46 (ix2 (((cfg2.win 2).blk t).view.emb (ix2 p q) 0) k) := by
    unfold iblk2
    rw [View.read_apply]
    show V c main_v46 (((cfg2.win 0).blk t).view.emb (ix2 p k)) = _
    refine congrArg (V c main_v46) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 64 + 1 * k.val = k.val; omega
  have hw : iblk2 V c 1 t (ix2 k q) = V c main_arg4 (ix2 k (((cfg2.win 2).blk t).view.emb (ix2 p q) 1)) := by
    unfold iblk2
    rw [View.read_apply]
    show V c main_arg4 (((cfg2.win 1).blk t).view.emb (ix2 k q)) = _
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [hx, hw]

/-- An index of the result array is in point t's block iff each coordinate is in the block's range. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v47).slice (win2_2.rect t)).set ↔ _
  rw [View.set_slice_whole, Rect.mem_set_unit]
  exact Iff.rfl

/-- Row r of the result lies in the block of point r / 2000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  refine ⟨⟨(i 0).val / 2000, by rw [hN]; omega⟩, flush2_2 _, ?_⟩
  rw [mem_blk]
  obtain ⟨e0, e1, e2, e3, e4, e5⟩ := idx_facts ⟨(i 0).val / 2000, by rw [hN]; omega⟩
  intro a
  match a with
  | ⟨0, _⟩ =>
    show win2_2.index _ (0 : Fin 2) * 2000 ≤ (i 0).val ∧ (i 0).val < win2_2.index _ (0 : Fin 2) * 2000 + 2000
    rw [e4]; show (i 0).val / 2000 * 2000 ≤ (i 0).val ∧ (i 0).val < (i 0).val / 2000 * 2000 + 2000; omega
  | ⟨1, _⟩ =>
    show win2_2.index _ (1 : Fin 2) * 64 ≤ (i 1).val ∧ (i 1).val < win2_2.index _ (1 : Fin 2) * 64 + 64
    rw [e5]; omega

/-- The array the region leaves: the features as the region finds them times the weights. -/
theorem final (c : Dev nD) :
    (dat2 V c).arrAt 2 cfg2.N = Cert.Spec.lin64 (V c main_v46) (V c main_arg4) :=
  (dat2 V c).arrAt_eq_of_cover 2 _ (fun t _ => flushed_eq V c t) cover

end Cert.KernelIdeal.Dense2

end
-- ==== Proof.ChainB.lean ====
/-
  The next three boundaries. The second region combines the first dense product, its aggregate, the column of
  inverse root degrees and the first layer's parameter rows: by the region's whole-array lemma and the
  reference's first layer this is the reference's stage after the first rectifier. The third region multiplies
  that by the second weights. The third stretch of host operations aggregates the second product along the
  edges, by the same operations as before, and reshapes the second layer's parameters to rows. The edges'
  ends and the inverse root degrees are written by no region and no later host operation; the column is an
  input window of the second region, whose array a region leaves as it found it.
-/
import proofs.«137989_j41266045780998_1_alg».proof.Proof.ChainA
import proofs.«137989_j41266045780998_1_alg».proof.Proof.Norm1
import proofs.«137989_j41266045780998_1_alg».proof.Proof.Dense2
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg) (c : Dev nD)

/-! ## After the second region: the first layer's output -/

/-- The first layer after normalisation and rectifier, in the reference's spelling. -/
theorem s4_v46 : W4 m ρ c (Proc.devRef .tc main_v46) = (Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11))) := by
  refine ((W4_arr m ρ c 8).trans (Cert.KernelIdeal.Norm1.final (V3 m ρ) c)).trans ?_
  show Cert.Spec.bnRelu (W3 m ρ c (Proc.devRef .tc main_v12)) (W3 m ρ c (Proc.devRef .tc main_v40)) (W3 m ρ c (Proc.devRef .tc main_v11)) (W3 m ρ c (Proc.devRef .tc main_v41)) (W3 m ρ c (Proc.devRef .tc main_v42)) (W3 m ρ c (Proc.devRef .tc main_v43)) (W3 m ρ c (Proc.devRef .tc main_v44)) (W3 m ρ c (Proc.devRef .tc main_v45)) = _
  rw [s3_v12 m ρ c, s3_v40 m ρ c, s3_v11 m ρ c, s3_v41 m ρ c, s3_v42 m ρ c, s3_v43 m ρ c, s3_v44 m ρ c, s3_v45 m ρ c]
  exact Cert.ReferenceIdeal.Layers.layer1 _ _ _ _ _ _ _ _ _ _
theorem s4_v1 : W4 m ρ c (Proc.devRef .tc main_v1) = (Cert.ReferenceIdeal.Read.val_main_v1 (F := Ideal) (m ((c.tc : Thread nD τ).loc main_arg1))) :=
  (W4_of_ne m ρ c main_v1 (by decide)).trans (s3_v1 m ρ c)
theorem s4_v3 : W4 m ρ c (Proc.devRef .tc main_v3) = (Cert.ReferenceIdeal.Read.val_main_v3 (F := Ideal) (m ((c.tc : Thread nD τ).loc main_arg1))) :=
  (W4_of_ne m ρ c main_v3 (by decide)).trans (s3_v3 m ρ c)
theorem s4_v10 : W4 m ρ c (Proc.devRef .tc main_v10) = (Cert.ReferenceIdeal.Read.val_main_v10 (F := Ideal) (m ((c.tc : Thread nD τ).loc main_arg1))) :=
  (W4_of_ne m ρ c main_v10 (by decide)).trans (s3_v10 m ρ c)
theorem s4_v11 : W4 m ρ c (Proc.devRef .tc main_v11) = (shapeCast S100000x1 (Cert.ReferenceIdeal.Read.val_main_v10 (F := Ideal) (m ((c.tc : Thread nD τ).loc main_arg1))) shapeCasts_S100000_S100000x1) :=
  ((W4_arr m ρ c 2).trans (((dat1 (V3 m ρ) c).arrAt_in 2 rfl _).trans (A_eq1 (V3 m ρ) c 2))).trans (s3_v11 m ρ c)
theorem s4_arg4 : W4 m ρ c (Proc.devRef .tc main_arg4) = (m ((c.tc : Thread nD τ).loc main_arg4)) :=
  (W4_of_ne m ρ c main_arg4 (by decide)).trans (s3_arg4 m ρ c)
theorem s4_arg5 : W4 m ρ c (Proc.devRef .tc main_arg5) = (m ((c.tc : Thread nD τ).loc main_arg5)) :=
  (W4_of_ne m ρ c main_arg5 (by decide)).trans (s3_arg5 m ρ c)
theorem s4_arg6 : W4 m ρ c (Proc.devRef .tc main_arg6) = (m ((c.tc : Thread nD τ).loc main_arg6)) :=
  (W4_of_ne m ρ c main_arg6 (by decide)).trans (s3_arg6 m ρ c)
theorem s4_arg7 : W4 m ρ c (Proc.devRef .tc main_arg7) = (m ((c.tc : Thread nD τ).loc main_arg7)) :=
  (W4_of_ne m ρ c main_arg7 (by decide)).trans (s3_arg7 m ρ c)
theorem s4_arg12 : W4 m ρ c (Proc.devRef .tc main_arg12) = (m ((c.tc : Thread nD τ).loc main_arg12)) :=
  (W4_of_ne m ρ c main_arg12 (by decide)).trans (s3_arg12 m ρ c)
theorem s4_arg13 : W4 m ρ c (Proc.devRef .tc main_arg13) = (m ((c.tc : Thread nD τ).loc main_arg13)) :=
  (W4_of_ne m ρ c main_arg13 (by decide)).trans (s3_arg13 m ρ c)
theorem s4_arg14 : W4 m ρ c (Proc.devRef .tc main_arg14) = (m ((c.tc : Thread nD τ).loc main_arg14)) :=
  (W4_of_ne m ρ c main_arg14 (by decide)).trans (s3_arg14 m ρ c)
theorem s4_arg15 : W4 m ρ c (Proc.devRef .tc main_arg15) = (m ((c.tc : Thread nD τ).loc main_arg15)) :=
  (W4_of_ne m ρ c main_arg15 (by decide)).trans (s3_arg15 m ρ c)

/-! ## After the third region: the second dense product -/

/-- The first layer's output times the second weights, in the reference's spelling. -/
theorem s5_v47 : W5 m ρ c (Proc.devRef .tc main_v47) = (Cert.ReferenceIdeal.Read.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11))) := by
  refine ((W5_arr m ρ c 2).trans (Cert.KernelIdeal.Dense2.final (V4 m ρ) c)).trans ?_
  show Cert.Spec.lin64 (W4 m ρ c (Proc.devRef .tc main_v46)) (W4 m ρ c (Proc.devRef .tc main_arg4)) = _
  rw [s4_v46 m ρ c, s4_arg4 m ρ c]
  exact (Cert.ReferenceIdeal.Layers.dot64 _ _ _ _ _ _ _ _ _).symm
theorem s5_v1 : W5 m ρ c (Proc.devRef .tc main_v1) = (Cert.ReferenceIdeal.Read.val_main_v1 (F := Ideal) (m ((c.tc : Thread nD τ).loc main_arg1))) :=
  (W5_of_ne m ρ c main_v1 (by decide)).trans (s4_v1 m ρ c)
theorem s5_v3 : W5 m ρ c (Proc.devRef .tc main_v3) = (Cert.ReferenceIdeal.Read.val_main_v3 (F := Ideal) (m ((c.tc : Thread nD τ).loc main_arg1))) :=
  (W5_of_ne m ρ c main_v3 (by decide)).trans (s4_v3 m ρ c)
theorem s5_v10 : W5 m ρ c (Proc.devRef .tc main_v10) = (Cert.ReferenceIdeal.Read.val_main_v10 (F := Ideal) (m ((c.tc : Thread nD τ).loc main_arg1))) :=
  (W5_of_ne m ρ c main_v10 (by decide)).trans (s4_v10 m ρ c)
theorem s5_v11 : W5 m ρ c (Proc.devRef .tc main_v11) = (shapeCast S100000x1 (Cert.ReferenceIdeal.Read.val_main_v10 (F := Ideal) (m ((c.tc : Thread nD τ).loc main_arg1))) shapeCasts_S100000_S100000x1) :=
  (W5_of_ne m ρ c main_v11 (by decide)).trans (s4_v11 m ρ c)
theorem s5_arg5 : W5 m ρ c (Proc.devRef .tc main_arg5) = (m ((c.tc : Thread nD τ).loc main_arg5)) :=
  (W5_of_ne m ρ c main_arg5 (by decide)).trans (s4_arg5 m ρ c)
theorem s5_arg6 : W5 m ρ c (Proc.devRef .tc main_arg6) = (m ((c.tc : Thread nD τ).loc main_arg6)) :=
  (W5_of_ne m ρ c main_arg6 (by decide)).trans (s4_arg6 m ρ c)
theorem s5_arg7 : W5 m ρ c (Proc.devRef .tc main_arg7) = (m ((c.tc : Thread nD τ).loc main_arg7)) :=
  (W5_of_ne m ρ c main_arg7 (by decide)).trans (s4_arg7 m ρ c)
theorem s5_arg12 : W5 m ρ c (Proc.devRef .tc main_arg12) = (m ((c.tc : Thread nD τ).loc main_arg12)) :=
  (W5_of_ne m ρ c main_arg12 (by decide)).trans (s4_arg12 m ρ c)
theorem s5_arg13 : W5 m ρ c (Proc.devRef .tc main_arg13) = (m ((c.tc : Thread nD τ).loc main_arg13)) :=
  (W5_of_ne m ρ c main_arg13 (by decide)).trans (s4_arg13 m ρ c)
theorem s5_arg14 : W5 m ρ c (Proc.devRef .tc main_arg14) = (m ((c.tc : Thread nD τ).loc main_arg14)) :=
  (W5_of_ne m ρ c main_arg14 (by decide)).trans (s4_arg14 m ρ c)
theorem s5_arg15 : W5 m ρ c (Proc.devRef .tc main_arg15) = (m ((c.tc : Thread nD τ).loc main_arg15)) :=
  (W5_of_ne m ρ c main_arg15 (by decide)).trans (s4_arg15 m ρ c)

/-! ## After the third stretch: the second aggregate and the second layer's parameter rows -/

theorem s6_v1 : W6 m ρ c (Proc.devRef .tc main_v1) = (Cert.ReferenceIdeal.Read.val_main_v1 (F := Ideal) (m ((c.tc : Thread nD τ).loc main_arg1))) := by
  refine Eq.trans ?_ (s5_v1 m ρ c)
  show StableHlo.after hostOps3 (W5 m ρ c) (Proc.devRef .tc main_v1) = _
  after_results_simp
theorem s6_v3 : W6 m ρ c (Proc.devRef .tc main_v3) = (Cert.ReferenceIdeal.Read.val_main_v3 (F := Ideal) (m ((c.tc : Thread nD τ).loc main_arg1))) := by
  refine Eq.trans ?_ (s5_v3 m ρ c)
  show StableHlo.after hostOps3 (W5 m ρ c) (Proc.devRef .tc main_v3) = _
  after_results_simp
theorem s6_v10 : W6 m ρ c (Proc.devRef .tc main_v10) = (Cert.ReferenceIdeal.Read.val_main_v10 (F := Ideal) (m ((c.tc : Thread nD τ).loc main_arg1))) := by
  refine Eq.trans ?_ (s5_v10 m ρ c)
  show StableHlo.after hostOps3 (W5 m ρ c) (Proc.devRef .tc main_v10) = _
  after_results_simp
theorem s6_v11 : W6 m ρ c (Proc.devRef .tc main_v11) = (shapeCast S100000x1 (Cert.ReferenceIdeal.Read.val_main_v10 (F := Ideal) (m ((c.tc : Thread nD τ).loc main_arg1))) shapeCasts_S100000_S100000x1) := by
  refine Eq.trans ?_ (s5_v11 m ρ c)
  show StableHlo.after hostOps3 (W5 m ρ c) (Proc.devRef .tc main_v11) = _
  after_results_simp
theorem s6_v47 : W6 m ρ c (Proc.devRef .tc main_v47) = (Cert.ReferenceIdeal.Read.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11))) := by
  refine Eq.trans ?_ (s5_v47 m ρ c)
  show StableHlo.after hostOps3 (W5 m ρ c) (Proc.devRef .tc main_v47) = _
  after_results_simp
theorem s6_arg6 : W6 m ρ c (Proc.devRef .tc main_arg6) = (m ((c.tc : Thread nD τ).loc main_arg6)) := by
  refine Eq.trans ?_ (s5_arg6 m ρ c)
  show StableHlo.after hostOps3 (W5 m ρ c) (Proc.devRef .tc main_arg6) = _
  after_results_simp
theorem s6_arg7 : W6 m ρ c (Proc.devRef .tc main_arg7) = (m ((c.tc : Thread nD τ).loc main_arg7)) := by
  refine Eq.trans ?_ (s5_arg7 m ρ c)
  show StableHlo.after hostOps3 (W5 m ρ c) (Proc.devRef .tc main_arg7) = _
  after_results_simp
/-- The reference's aggregate of the second product. -/
theorem s6_v75 : W6 m ρ c (Proc.devRef .tc main_v75) = (Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11))) := by
  generalize hR : (Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11))) = R
  show StableHlo.after hostOps3 (W5 m ρ c) (Proc.devRef .tc main_v75) = R
  after_results_simp
  rw [s5_v47 m ρ c, s5_v1 m ρ c, s5_v3 m ρ c, s5_v10 m ρ c, ← hR]
  rfl
theorem s6_v76 : W6 m ρ c (Proc.devRef .tc main_v76) = (shapeCast S1x64 (m ((c.tc : Thread nD τ).loc main_arg5)) shapeCasts_S64_S1x64) := by
  generalize hR : (shapeCast S1x64 (m ((c.tc : Thread nD τ).loc main_arg5)) shapeCasts_S64_S1x64) = R
  show StableHlo.after hostOps3 (W5 m ρ c) (Proc.devRef .tc main_v76) = R
  after_results_simp
  rw [s5_arg5 m ρ c, ← hR]
  rfl
theorem s6_v77 : W6 m ρ c (Proc.devRef .tc main_v77) = (shapeCast S1x64 (m ((c.tc : Thread nD τ).loc main_arg12)) shapeCasts_S64_S1x64) := by
  generalize hR : (shapeCast S1x64 (m ((c.tc : Thread nD τ).loc main_arg12)) shapeCasts_S64_S1x64) = R
  show StableHlo.after hostOps3 (W5 m ρ c) (Proc.devRef .tc main_v77) = R
  after_results_simp
  rw [s5_arg12 m ρ c, ← hR]
  rfl
theorem s6_v78 : W6 m ρ c (Proc.devRef .tc main_v78) = (shapeCast S1x64 (m ((c.tc : Thread nD τ).loc main_arg13)) shapeCasts_S64_S1x64) := by
  generalize hR : (shapeCast S1x64 (m ((c.tc : Thread nD τ).loc main_arg13)) shapeCasts_S64_S1x64) = R
  show StableHlo.after hostOps3 (W5 m ρ c) (Proc.devRef .tc main_v78) = R
  after_results_simp
  rw [s5_arg13 m ρ c, ← hR]
  rfl
theorem s6_v79 : W6 m ρ c (Proc.devRef .tc main_v79) = (shapeCast S1x64 (m ((c.tc : Thread nD τ).loc main_arg14)) shapeCasts_S64_S1x64) := by
  generalize hR : (shapeCast S1x64 (m ((c.tc : Thread nD τ).loc main_arg14)) shapeCasts_S64_S1x64) = R
  show StableHlo.after hostOps3 (W5 m ρ c) (Proc.devRef .tc main_v79) = R
  after_results_simp
  rw [s5_arg14 m ρ c, ← hR]
  rfl
theorem s6_v80 : W6 m ρ c (Proc.devRef .tc main_v80) = (shapeCast S1x64 (m ((c.tc : Thread nD τ).loc main_arg15)) shapeCasts_S64_S1x64) := by
  generalize hR : (shapeCast S1x64 (m ((c.tc : Thread nD τ).loc main_arg15)) shapeCasts_S64_S1x64) = R
  show StableHlo.after hostOps3 (W5 m ρ c) (Proc.devRef .tc main_v80) = R
  after_results_simp
  rw [s5_arg15 m ρ c, ← hR]
  rfl

end Cert.KernelIdeal.Chain

end
-- ==== Proof.Norm3.lean ====
/-
  The combination of region 3: at every grid point the body takes 2000 rows of the dense product H and of the
  aggregate A, the same rows of the column d of inverse root degrees, and the five parameter rows, and stores

      max (((((A + H * (d * d)) + b) - mu) * rsqrt (va + eps)) * g + be) 0

  entry by entry, the column broadcast along the features and the rows along the nodes. So the array the region
  leaves is that expression of the whole arrays, at every node and feature.
-/
import proofs.«137989_j41266045780998_1_alg».proof.Proof.Gen.KernelIdeal.Frame
import proofs.«137989_j41266045780998_1_alg».proof.Proof.Spec
import proofs.«137989_j41266045780998_1_alg».proof.Proof.LibColumns
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Norm3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q), from the loaded blocks: the column is read at row p, the parameter rows
    at feature q. -/
theorem pay_apply (d : Vec Ideal S2000x1 .f32) (h agg : Vec Ideal S2000x64 .f32) (b mu va g be : Vec Ideal S1x64 .f32)
    (p : Fin 2000) (q : Fin 64) :
    k3_pay1 (F := Ideal) d h agg b mu va g be (ix2 p q)
      = max ((((((agg (ix2 p q) + h (ix2 p q) * (d (ix2 p (0 : Fin 1)) * d (ix2 p (0 : Fin 1)))) + b (ix2 (0 : Fin 1) q))
            - mu (ix2 (0 : Fin 1) q)) * Ideal.rsqrt (va (ix2 (0 : Fin 1) q) + Ideal.ofBits .f32 0x3727C5AC#32))
            * g (ix2 (0 : Fin 1) q)) + be (ix2 (0 : Fin 1) q))
          (Ideal.ofBits .f32 0x00000000#32) := by
  unfold k3_pay1
  simp only [shapeCast_self, maximumf_apply, addf_apply, mulf_apply, subf_apply, broadcast_apply,
    broadcastTo_1b_ab_apply, Cert.Columns.broadcastTo_a1_ab_apply]
  rfl

/-- The grid's index maps: the three node-indexed inputs and the result move with the point on the node axis; each
    parameter row's one block is the row itself. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = t.val ∧ win3_8.index t (1 : Fin 2) = 0) :=
  (by decide +kernel : ∀ t : Fin grid3.N, _)

/-- The dense product's block at (p, q) of point t's block is the array at the result block's own index. -/
theorem rd0 (c : Dev nD) (t : Fin cfg3.N) (p : Fin 2000) (q : Fin 64) :
    iblk3 V c 0 t (ix2 p q) = V c main_v47 (((cfg3.win 8).blk t).view.emb (ix2 p q)) := by
  obtain ⟨⟨a0, a1⟩, -, -, -, -, -, -, -, ⟨o0, o1⟩⟩ := idx_facts t
  unfold iblk3
  rw [View.read_apply]
  show V c main_v47 (((cfg3.win 0).blk t).view.emb (ix2 p q)) = _
  refine congrArg (V c main_v47) (funext fun a => Fin.ext ?_)
  match a with
  | ⟨0, _⟩ => show win3_0.index t (0 : Fin 2) * 2000 + 1 * p.val = win3_8.index t (0 : Fin 2) * 2000 + 1 * p.val; omega
  | ⟨1, _⟩ => show win3_0.index t (1 : Fin 2) * 64 + 1 * q.val = win3_8.index t (1 : Fin 2) * 64 + 1 * q.val; omega

/-- The aggregate's block at (p, q) of point t's block is the array at the result block's own index. -/
theorem rd1 (c : Dev nD) (t : Fin cfg3.N) (p : Fin 2000) (q : Fin 64) :
    iblk3 V c 1 t (ix2 p q) = V c main_v75 (((cfg3.win 8).blk t).view.emb (ix2 p q)) := by
  obtain ⟨-, ⟨a0, a1⟩, -, -, -, -, -, -, ⟨o0, o1⟩⟩ := idx_facts t
  unfold iblk3
  rw [View.read_apply]
  show V c main_v75 (((cfg3.win 1).blk t).view.emb (ix2 p q)) = _
  refine congrArg (V c main_v75) (funext fun a => Fin.ext ?_)
  match a with
  | ⟨0, _⟩ => show win3_1.index t (0 : Fin 2) * 2000 + 1 * p.val = win3_8.index t (0 : Fin 2) * 2000 + 1 * p.val; omega
  | ⟨1, _⟩ => show win3_1.index t (1 : Fin 2) * 64 + 1 * q.val = win3_8.index t (1 : Fin 2) * 64 + 1 * q.val; omega

/-- The column's block at row p is the column at the result index' node. -/
theorem rd2 (c : Dev nD) (t : Fin cfg3.N) (p : Fin 2000) (q : Fin 64) :
    iblk3 V c 2 t (ix2 p (0 : Fin 1)) = V c main_v11 (ix2 ((((cfg3.win 8).blk t).view.emb (ix2 p q)) 0) (0 : Fin 1)) := by
  obtain ⟨-, -, ⟨a0, a1⟩, -, -, -, -, -, ⟨o0, o1⟩⟩ := idx_facts t
  unfold iblk3
  rw [View.read_apply]
  show V c main_v11 (((cfg3.win 2).blk t).view.emb (ix2 p (0 : Fin 1))) = _
  refine congrArg (V c main_v11) (funext fun a => Fin.ext ?_)
  match a with
  | ⟨0, _⟩ => show win3_2.index t (0 : Fin 2) * 2000 + 1 * p.val = win3_8.index t (0 : Fin 2) * 2000 + 1 * p.val; omega
  | ⟨1, _⟩ => show win3_2.index t (1 : Fin 2) * 1 + 1 * 0 = 0; omega

/-- The bias row at feature q is the row's entry at the result index' feature. -/
theorem rd3 (c : Dev nD) (t : Fin cfg3.N) (p : Fin 2000) (q : Fin 64) :
    iblk3 V c 3 t (ix2 (0 : Fin 1) q) = V c main_v76 (ix2 (0 : Fin 1) ((((cfg3.win 8).blk t).view.emb (ix2 p q)) 1)) := by
  obtain ⟨-, -, -, ⟨a0, a1⟩, -, -, -, -, ⟨o0, o1⟩⟩ := idx_facts t
  unfold iblk3
  rw [View.read_apply]
  show V c main_v76 (((cfg3.win 3).blk t).view.emb (ix2 (0 : Fin 1) q)) = _
  refine congrArg (V c main_v76) (funext fun a => Fin.ext ?_)
  match a with
  | ⟨0, _⟩ => show win3_3.index t (0 : Fin 2) * 1 + 1 * 0 = 0; omega
  | ⟨1, _⟩ => show win3_3.index t (1 : Fin 2) * 64 + 1 * q.val = win3_8.index t (1 : Fin 2) * 64 + 1 * q.val; omega

/-- The scale row at feature q is the row's entry at the result index' feature. -/
theorem rd4 (c : Dev nD) (t : Fin cfg3.N) (p : Fin 2000) (q : Fin 64) :
    iblk3 V c 4 t (ix2 (0 : Fin 1) q) = V c main_v77 (ix2 (0 : Fin 1) ((((cfg3.win 8).blk t).view.emb (ix2 p q)) 1)) := by
  obtain ⟨-, -, -, -, ⟨a0, a1⟩, -, -, -, ⟨o0, o1⟩⟩ := idx_facts t
  unfold iblk3
  rw [View.read_apply]
  show V c main_v77 (((cfg3.win 4).blk t).view.emb (ix2 (0 : Fin 1) q)) = _
  refine congrArg (V c main_v77) (funext fun a => Fin.ext ?_)
  match a with
  | ⟨0, _⟩ => show win3_4.index t (0 : Fin 2) * 1 + 1 * 0 = 0; omega
  | ⟨1, _⟩ => show win3_4.index t (1 : Fin 2) * 64 + 1 * q.val = win3_8.index t (1 : Fin 2) * 64 + 1 * q.val; omega

/-- The shift row at feature q is the row's entry at the result index' feature. -/
theorem rd5 (c : Dev nD) (t : Fin cfg3.N) (p : Fin 2000) (q : Fin 64) :
    iblk3 V c 5 t (ix2 (0 : Fin 1) q) = V c main_v78 (ix2 (0 : Fin 1) ((((cfg3.win 8).blk t).view.emb (ix2 p q)) 1)) := by
  obtain ⟨-, -, -, -, -, ⟨a0, a1⟩, -, -, ⟨o0, o1⟩⟩ := idx_facts t
  unfold iblk3
  rw [View.read_apply]
  show V c main_v78 (((cfg3.win 5).blk t).view.emb (ix2 (0 : Fin 1) q)) = _
  refine congrArg (V c main_v78) (funext fun a => Fin.ext ?_)
  match a with
  | ⟨0, _⟩ => show win3_5.index t (0 : Fin 2) * 1 + 1 * 0 = 0; omega
  | ⟨1, _⟩ => show win3_5.index t (1 : Fin 2) * 64 + 1 * q.val = win3_8.index t (1 : Fin 2) * 64 + 1 * q.val; omega

/-- The mean row at feature q is the row's entry at the result index' feature. -/
theorem rd6 (c : Dev nD) (t : Fin cfg3.N) (p : Fin 2000) (q : Fin 64) :
    iblk3 V c 6 t (ix2 (0 : Fin 1) q) = V c main_v79 (ix2 (0 : Fin 1) ((((cfg3.win 8).blk t).view.emb (ix2 p q)) 1)) := by
  obtain ⟨-, -, -, -, -, -, ⟨a0, a1⟩, -, ⟨o0, o1⟩⟩ := idx_facts t
  unfold iblk3
  rw [View.read_apply]
  show V c main_v79 (((cfg3.win 6).blk t).view.emb (ix2 (0 : Fin 1) q)) = _
  refine congrArg (V c main_v79) (funext fun a => Fin.ext ?_)
  match a with
  | ⟨0, _⟩ => show win3_6.index t (0 : Fin 2) * 1 + 1 * 0 = 0; omega
  | ⟨1, _⟩ => show win3_6.index t (1 : Fin 2) * 64 + 1 * q.val = win3_8.index t (1 : Fin 2) * 64 + 1 * q.val; omega

/-- The variance row at feature q is the row's entry at the result index' feature. -/
theorem rd7 (c : Dev nD) (t : Fin cfg3.N) (p : Fin 2000) (q : Fin 64) :
    iblk3 V c 7 t (ix2 (0 : Fin 1) q) = V c main_v80 (ix2 (0 : Fin 1) ((((cfg3.win 8).blk t).view.emb (ix2 p q)) 1)) := by
  obtain ⟨-, -, -, -, -, -, -, ⟨a0, a1⟩, ⟨o0, o1⟩⟩ := idx_facts t
  unfold iblk3
  rw [View.read_apply]
  show V c main_v80 (((cfg3.win 7).blk t).view.emb (ix2 (0 : Fin 1) q)) = _
  refine congrArg (V c main_v80) (funext fun a => Fin.ext ?_)
  match a with
  | ⟨0, _⟩ => show win3_7.index t (0 : Fin 2) * 1 + 1 * 0 = 0; omega
  | ⟨1, _⟩ => show win3_7.index t (1 : Fin 2) * 64 + 1 * q.val = win3_8.index t (1 : Fin 2) * 64 + 1 * q.val; omega

/-- What point t writes back is block t of the combination of the whole arrays. -/
theorem flushed_eq (c : Dev nD) (t : Fin cfg3.N) :
    (dat3 V c).flushed 8 t = ((cfg3.win 8).blk t).view.read (Elt Ideal)
      (Cert.Spec.bnRelu (V c main_v47) (V c main_v75) (V c main_v11) (V c main_v76) (V c main_v77) (V c main_v78) (V c main_v79) (V c main_v80)) := by
  show (cfg3.win 8).cut (grid3.coords t) ((dat3 V c).after 8 t) = _
  rw [after3_8]
  unfold out3_8
  rw [View.canon_unit_zero hz]
  simp only [View.ld_unit_zero (S := S2000x64) hz, View.ld_unit_zero (S := S2000x1) hz, View.ld_unit_zero (S := S1x64) hz]
  funext j
  obtain ⟨p, q, rfl⟩ : ∃ (p : Fin 2000) (q : Fin 64), j = ix2 p q := ⟨j 0, j 1, eq_ix2 j⟩
  refine (pay_apply _ _ _ _ _ _ _ _ p q).trans ?_
  show _ = Cert.Spec.bnRelu (V c main_v47) (V c main_v75) (V c main_v11) (V c main_v76) (V c main_v77) (V c main_v78) (V c main_v79) (V c main_v80) (((cfg3.win 8).blk t).view.emb (ix2 p q))
  unfold Cert.Spec.bnRelu Cert.Spec.pre64
  rw [rd0 V c t p q, rd1 V c t p q, rd2 V c t p q, rd3 V c t p q, rd4 V c t p q, rd5 V c t p q, rd6 V c t p q, rd7 V c t p q]

/-- An index of the result array is in point t's block iff each coordinate is in the block's range. -/
theorem mem_blk (t : Fin cfg3.N) (i : S100000x64.Idx) :
    i ∈ ((cfg3.win 8).blk t).view.set ↔ ∀ a : Fin 2, win3_8.index t a * S2000x64.size a ≤ (i a).val ∧ (i a).val < win3_8.index t a * S2000x64.size a + S2000x64.size a := by
  show i ∈ ((View.whole main_v81).slice (win3_8.rect t)).set ↔ _
  rw [View.set_slice_whole, Rect.mem_set_unit]
  exact Iff.rfl

/-- Node r of the result lies in the block of point r / 2000. -/
theorem cover (i : S100000x64.Idx) : ∃ t : Fin cfg3.N, (cfg3.win 8).flush t = true ∧ i ∈ ((cfg3.win 8).blk t).view.set := by
  have hi0 : (i 0).val < 100000 := (i 0).isLt
  have hi1 : (i 1).val < 64 := (i 1).isLt
  have hN : cfg3.N = 50 := N_3
  refine ⟨⟨(i 0).val / 2000, by rw [hN]; omega⟩, flush3_8 _, ?_⟩
  rw [mem_blk]
  obtain ⟨-, -, -, -, -, -, -, -, ⟨o0, o1⟩⟩ := idx_facts ⟨(i 0).val / 2000, by rw [hN]; omega⟩
  intro a
  match a with
  | ⟨0, _⟩ =>
    show win3_8.index _ (0 : Fin 2) * 2000 ≤ (i 0).val ∧ (i 0).val < win3_8.index _ (0 : Fin 2) * 2000 + 2000
    rw [o0]; show (i 0).val / 2000 * 2000 ≤ (i 0).val ∧ (i 0).val < (i 0).val / 2000 * 2000 + 2000; omega
  | ⟨1, _⟩ =>
    show win3_8.index _ (1 : Fin 2) * 64 ≤ (i 1).val ∧ (i 1).val < win3_8.index _ (1 : Fin 2) * 64 + 64
    rw [o1]; omega

/-- The array the region leaves: the combination of the arrays as the region finds them. -/
theorem final (c : Dev nD) :
    (dat3 V c).arrAt 8 cfg3.N
      = Cert.Spec.bnRelu (V c main_v47) (V c main_v75) (V c main_v11) (V c main_v76) (V c main_v77) (V c main_v78) (V c main_v79) (V c main_v80) :=
  (dat3 V c).arrAt_eq_of_cover 8 _ (fun t _ => flushed_eq V c t) cover

end Cert.KernelIdeal.Norm3

end
-- ==== Proof.Dense4.lean ====
/-
  The dense product of region 4: every grid point multiplies its block of 2000 rows of the features by the whole
  weight matrix, so the array the region leaves is the product of the whole feature matrix with the weights,
  row by row. A row r of the result lies in block r / 2000, at row r % 2000 of it; the weights' one block is
  the matrix itself.
-/
import proofs.«137989_j41266045780998_1_alg».proof.Proof.Gen.KernelIdeal.Frame
import proofs.«137989_j41266045780998_1_alg».proof.Proof.Spec
import proofs.«137989_j41266045780998_1_alg».proof.Proof.LibDotRows
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Dense4

open Cert.KernelIdeal Cert.KernelIdeal.Gen Cert.Hand

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): row p of the loaded feature block against column q of the loaded weights
    (the roundings to bf16 are the identity on the extended reals, and the accumulator starts at zero). -/
theorem pay_apply (l : Vec Ideal S2000x64 .f32) (r : Vec Ideal S64x1 .f32) (p : Fin 2000) (q : Fin 1) :
    k4_pay1 (F := Ideal) l r (ix2 p q) = ∑ k : Fin 64, l (ix2 p k) * r (ix2 k q) := by
  unfold k4_pay1
  try simp only [shapeCast_self]
  refine (Ideal.matmul_constant_zero_apply dot_S2000x64_S64x1_S2000x1_1_0_0_1_n_n none _ _ (ix2 p q)).trans ?_
  show ∑ c, l (dot_S2000x64_S64x1_S2000x1_1_0_0_1_n_n.lhsIdx (ix2 p q) c) * r (dot_S2000x64_S64x1_S2000x1_1_0_0_1_n_n.rhsIdx (ix2 p q) c) = _
  dot_rows dot_S2000x64_S64x1_S2000x1_1_0_0_1_n_n S2000x64 S64x1 64

/-- The grid's index maps: the features' and the result's block index is the point itself on the row axis, the
    weights' block is block 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the whole arrays. -/
theorem flushed_eq (c : Dev nD) (t : Fin cfg4.N) :
    (dat4 V c).flushed 2 t = ((cfg4.win 2).blk t).view.read (Elt Ideal)
      (Cert.Spec.lin1 (V c main_v81) (V c main_arg6)) := by
  show (cfg4.win 2).cut (grid4.coords t) ((dat4 V c).after 2 t) = _
  rw [after4_2]
  unfold out4_2
  rw [View.canon_unit_zero hz]
  simp only [View.ld_unit_zero (S := S2000x64) hz, View.ld_unit_zero (S := S64x1) hz]
  obtain ⟨e0, e1, e2, e3, e4, e5⟩ := idx_facts t
  funext j
  obtain ⟨p, q, rfl⟩ : ∃ (p : Fin 2000) (q : Fin 1), j = ix2 p q := ⟨j 0, j 1, eq_ix2 j⟩
  refine (pay_apply _ _ p q).trans ?_
  show _ = Cert.Spec.lin1 (V c main_v81) (V c main_arg6) (((cfg4.win 2).blk t).view.emb (ix2 p q))
  unfold Cert.Spec.lin1
  refine Finset.sum_congr rfl fun k _ => ?_
  have hx : iblk4 V c 0 t (ix2 p k) = V c main_v81 (ix2 (((cfg4.win 2).blk t).view.emb (ix2 p q) 0) k) := by
    unfold iblk4
    rw [View.read_apply]
    show V c main_v81 (((cfg4.win 0).blk t).view.emb (ix2 p k)) = _
    refine congrArg (V c main_v81) (funext fun a => Fin.ext ?_)
    match a with
    | ⟨0, _⟩ => show win4_0.index t (0 : Fin 2) * 2000 + 1 * p.val = win4_2.index t (0 : Fin 2) * 2000 + 1 * p.val; omega
    | ⟨1, _⟩ => show win4_0.index t (1 : Fin 2) * 64 + 1 * k.val = k.val; omega
  have hw : iblk4 V c 1 t (ix2 k q) = V c main_arg6 (ix2 k (((cfg4.win 2).blk t).view.emb (ix2 p q) 1)) := by
    unfold iblk4
    rw [View.read_apply]
    show V c main_arg6 (((cfg4.win 1).blk t).view.emb (ix2 k q)) = _
    refine congrArg (V c main_arg6) (funext fun a => Fin.ext ?_)
    match a with
    | ⟨0, _⟩ => show win4_1.index t (0 : Fin 2) * 64 + 1 * k.val = k.val; omega
    | ⟨1, _⟩ => show win4_1.index t (1 : Fin 2) * 1 + 1 * q.val = win4_2.index t (1 : Fin 2) * 1 + 1 * q.val; omega
  rw [hx, hw]

/-- An index of the result array is in point t's block iff each coordinate is in the block's range. -/
theorem mem_blk (t : Fin cfg4.N) (i : S100000x1.Idx) :
    i ∈ ((cfg4.win 2).blk t).view.set ↔ ∀ a : Fin 2, win4_2.index t a * S2000x1.size a ≤ (i a).val ∧ (i a).val < win4_2.index t a * S2000x1.size a + S2000x1.size a := by
  show i ∈ ((View.whole main_v82).slice (win4_2.rect t)).set ↔ _
  rw [View.set_slice_whole, Rect.mem_set_unit]
  exact Iff.rfl

/-- Row r of the result lies in the block of point r / 2000. -/
theorem cover (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 50 := N_4
  refine ⟨⟨(i 0).val / 2000, by rw [hN]; omega⟩, flush4_2 _, ?_⟩
  rw [mem_blk]
  obtain ⟨e0, e1, e2, e3, e4, e5⟩ := idx_facts ⟨(i 0).val / 2000, by rw [hN]; omega⟩
  intro a
  match a with
  | ⟨0, _⟩ =>
    show win4_2.index _ (0 : Fin 2) * 2000 ≤ (i 0).val ∧ (i 0).val < win4_2.index _ (0 : Fin 2) * 2000 + 2000
    rw [e4]; show (i 0).val / 2000 * 2000 ≤ (i 0).val ∧ (i 0).val < (i 0).val / 2000 * 2000 + 2000; omega
  | ⟨1, _⟩ =>
    show win4_2.index _ (1 : Fin 2) * 1 ≤ (i 1).val ∧ (i 1).val < win4_2.index _ (1 : Fin 2) * 1 + 1
    rw [e5]; omega

/-- The array the region leaves: the features as the region finds them times the weights. -/
theorem final (c : Dev nD) :
    (dat4 V c).arrAt 2 cfg4.N = Cert.Spec.lin1 (V c main_v81) (V c main_arg6) :=
  (dat4 V c).arrAt_eq_of_cover 2 _ (fun t _ => flushed_eq V c t) cover

end Cert.KernelIdeal.Dense4

end
-- ==== Proof.Logistic5.lean ====
/-
  The last combination, region 5, at width one: at every grid point the body takes 2000 nodes of the dense
  product H, of the aggregate A and of the column d of inverse root degrees, and the one bias, and stores

      1 / (1 + exp (0 - ((A + H * (d * d)) + b)))

  node by node. On the extended reals 0 - x is - x, so the array the region leaves is the logistic function of
  the combination of the whole arrays.
-/
import proofs.«137989_j41266045780998_1_alg».proof.Proof.Gen.KernelIdeal.Frame
import proofs.«137989_j41266045780998_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Logistic5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at node p of the block, from the loaded blocks. -/
theorem pay_apply (d h agg : Vec Ideal S2000x1 .f32) (b : Vec Ideal S1x1 .f32) (p : Fin 2000) :
    k5_pay1 (F := Ideal) d h agg b (ix2 p (0 : Fin 1))
      = Ideal.div (Ideal.ofBits .f32 0x3F800000#32) (Ideal.ofBits .f32 0x3F800000#32
          + Ideal.exp (- ((agg (ix2 p (0 : Fin 1)) + h (ix2 p (0 : Fin 1)) * (d (ix2 p (0 : Fin 1)) * d (ix2 p (0 : Fin 1))))
              + b (ix2 (0 : Fin 1) (0 : Fin 1))))) := by
  unfold k5_pay1
  simp only [shapeCast_self]
  show Ideal.div (Ideal.ofBits .f32 0x3F800000#32) (Ideal.ofBits .f32 0x3F800000#32
      + Ideal.exp (Ideal.ofBits .f32 0x00000000#32
          - ((agg (ix2 p (0 : Fin 1)) + h (ix2 p (0 : Fin 1)) * (d (ix2 p (0 : Fin 1)) * d (ix2 p (0 : Fin 1))))
              + broadcastTo S2000x1 b broadcasts_S1x1_S2000x1 (ix2 p (0 : Fin 1))))) = _
  rw [broadcastTo_1b_ab_apply, Ideal.ofBits_zero_f32, zero_sub]

/-- The grid's index maps: the three node-indexed inputs and the result move with the point; the bias' one block
    is the bias. -/
theorem idx_facts : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = 0 ∧ win5_3.index t (1 : Fin 2) = 0)
    ∧ (win5_4.index t (0 : Fin 2) = t.val ∧ win5_4.index t (1 : Fin 2) = 0) :=
  (by decide +kernel : ∀ t : Fin grid5.N, _)

/-- What point t writes back is block t of the logistic combination of the whole arrays. -/
theorem flushed_eq (c : Dev nD) (t : Fin cfg5.N) :
    (dat5 V c).flushed 4 t = ((cfg5.win 4).blk t).view.read (Elt Ideal)
      (Cert.Spec.logistic1 (V c main_v82) (V c main_v109) (V c main_v11) (V c main_v110)) := by
  show (cfg5.win 4).cut (grid5.coords t) ((dat5 V c).after 4 t) = _
  rw [after5_4]
  unfold out5_4
  rw [View.canon_unit_zero hz]
  simp only [View.ld_unit_zero (S := S2000x1) hz, View.ld_unit_zero (S := S1x1) hz]
  obtain ⟨⟨a0, a1⟩, ⟨b0, b1⟩, ⟨c0, c1⟩, ⟨d0, d1⟩, ⟨o0, o1⟩⟩ := idx_facts t
  funext j
  obtain ⟨p, u, rfl⟩ : ∃ (p : Fin 2000) (u : Fin 1), j = ix2 p u := ⟨j 0, j 1, eq_ix2 j⟩
  obtain rfl : u = 0 := Subsingleton.elim _ _
  refine (pay_apply _ _ _ _ p).trans ?_
  show _ = Cert.Spec.logistic1 (V c main_v82) (V c main_v109) (V c main_v11) (V c main_v110) (((cfg5.win 4).blk t).view.emb (ix2 p (0 : Fin 1)))
  unfold Cert.Spec.logistic1 Cert.Spec.pre1
  have h0 : iblk5 V c 0 t (ix2 p (0 : Fin 1)) = V c main_v82 (((cfg5.win 4).blk t).view.emb (ix2 p (0 : Fin 1))) := by
    unfold iblk5
    rw [View.read_apply]
    show V c main_v82 (((cfg5.win 0).blk t).view.emb (ix2 p (0 : Fin 1))) = _
    refine congrArg (V c main_v82) (funext fun a => Fin.ext ?_)
    match a with
    | ⟨0, _⟩ => show win5_0.index t (0 : Fin 2) * 2000 + 1 * p.val = win5_4.index t (0 : Fin 2) * 2000 + 1 * p.val; omega
    | ⟨1, _⟩ => show win5_0.index t (1 : Fin 2) * 1 + 1 * 0 = win5_4.index t (1 : Fin 2) * 1 + 1 * 0; omega
  have h1 : iblk5 V c 1 t (ix2 p (0 : Fin 1)) = V c main_v109 (((cfg5.win 4).blk t).view.emb (ix2 p (0 : Fin 1))) := by
    unfold iblk5
    rw [View.read_apply]
    show V c main_v109 (((cfg5.win 1).blk t).view.emb (ix2 p (0 : Fin 1))) = _
    refine congrArg (V c main_v109) (funext fun a => Fin.ext ?_)
    match a with
    | ⟨0, _⟩ => show win5_1.index t (0 : Fin 2) * 2000 + 1 * p.val = win5_4.index t (0 : Fin 2) * 2000 + 1 * p.val; omega
    | ⟨1, _⟩ => show win5_1.index t (1 : Fin 2) * 1 + 1 * 0 = win5_4.index t (1 : Fin 2) * 1 + 1 * 0; omega
  have h2 : iblk5 V c 2 t (ix2 p (0 : Fin 1)) = V c main_v11 (((cfg5.win 4).blk t).view.emb (ix2 p (0 : Fin 1))) := by
    unfold iblk5
    rw [View.read_apply]
    show V c main_v11 (((cfg5.win 2).blk t).view.emb (ix2 p (0 : Fin 1))) = _
    refine congrArg (V c main_v11) (funext fun a => Fin.ext ?_)
    match a with
    | ⟨0, _⟩ => show win5_2.index t (0 : Fin 2) * 2000 + 1 * p.val = win5_4.index t (0 : Fin 2) * 2000 + 1 * p.val; omega
    | ⟨1, _⟩ => show win5_2.index t (1 : Fin 2) * 1 + 1 * 0 = win5_4.index t (1 : Fin 2) * 1 + 1 * 0; omega
  have h3 : iblk5 V c 3 t (ix2 (0 : Fin 1) (0 : Fin 1)) = V c main_v110 (ix2 (0 : Fin 1) (0 : Fin 1)) := by
    unfold iblk5
    rw [View.read_apply]
    show V c main_v110 (((cfg5.win 3).blk t).view.emb (ix2 (0 : Fin 1) (0 : Fin 1))) = _
    refine congrArg (V c main_v110) (funext fun a => Fin.ext ?_)
    match a with
    | ⟨0, _⟩ => show win5_3.index t (0 : Fin 2) * 1 + 1 * 0 = 0; omega
    | ⟨1, _⟩ => show win5_3.index t (1 : Fin 2) * 1 + 1 * 0 = 0; omega
  rw [h0, h1, h2, h3]

/-- An index of the result array is in point t's block iff each coordinate is in the block's range. -/
theorem mem_blk (t : Fin cfg5.N) (i : S100000x1.Idx) :
    i ∈ ((cfg5.win 4).blk t).view.set ↔ ∀ a : Fin 2, win5_4.index t a * S2000x1.size a ≤ (i a).val ∧ (i a).val < win5_4.index t a * S2000x1.size a + S2000x1.size a := by
  show i ∈ ((View.whole main_v111).slice (win5_4.rect t)).set ↔ _
  rw [View.set_slice_whole, Rect.mem_set_unit]
  exact Iff.rfl

/-- Node r of the result lies in the block of point r / 2000. -/
theorem cover (i : S100000x1.Idx) : ∃ t : Fin cfg5.N, (cfg5.win 4).flush t = true ∧ i ∈ ((cfg5.win 4).blk t).view.set := by
  have hi0 : (i 0).val < 100000 := (i 0).isLt
  have hi1 : (i 1).val < 1 := (i 1).isLt
  have hN : cfg5.N = 50 := N_5
  refine ⟨⟨(i 0).val / 2000, by rw [hN]; omega⟩, flush5_4 _, ?_⟩
  rw [mem_blk]
  obtain ⟨-, -, -, -, ⟨o0, o1⟩⟩ := idx_facts ⟨(i 0).val / 2000, by rw [hN]; omega⟩
  intro a
  match a with
  | ⟨0, _⟩ =>
    show win5_4.index _ (0 : Fin 2) * 2000 ≤ (i 0).val ∧ (i 0).val < win5_4.index _ (0 : Fin 2) * 2000 + 2000
    rw [o0]; show (i 0).val / 2000 * 2000 ≤ (i 0).val ∧ (i 0).val < (i 0).val / 2000 * 2000 + 2000; omega
  | ⟨1, _⟩ =>
    show win5_4.index _ (1 : Fin 2) * 1 ≤ (i 1).val ∧ (i 1).val < win5_4.index _ (1 : Fin 2) * 1 + 1
    rw [o1]; omega

/-- The array the region leaves: the logistic combination of the arrays as the region finds them. -/
theorem final (c : Dev nD) :
    (dat5 V c).arrAt 4 cfg5.N = Cert.Spec.logistic1 (V c main_v82) (V c main_v109) (V c main_v11) (V c main_v110) :=
  (dat5 V c).arrAt_eq_of_cover 4 _ (fun t _ => flushed_eq V c t) cover

end Cert.KernelIdeal.Logistic5

end
-- ==== Proof.ChainC.lean ====
/-
  The last four boundaries. The fourth region is the second layer's combination (the reference's stage after the
  second rectifier), the fifth multiplies it by the last weights (width one), the last stretch of host
  operations aggregates that product along the edges and reshapes the last bias, and the sixth region is the
  logistic combination: the reference's result. So the last link of the chain, read at the result's reference,
  is the reference's result as a function of the sixteen arguments.
-/
import proofs.«137989_j41266045780998_1_alg».proof.Proof.ChainB
import proofs.«137989_j41266045780998_1_alg».proof.Proof.Norm3
import proofs.«137989_j41266045780998_1_alg».proof.Proof.Dense4
import proofs.«137989_j41266045780998_1_alg».proof.Proof.Logistic5
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg) (c : Dev nD)

/-! ## After the fourth region: the second layer's output -/

theorem s7_v81 : W7 m ρ c (Proc.devRef .tc main_v81) = (Cert.ReferenceIdeal.Read.val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  refine ((W7_arr m ρ c 8).trans (Cert.KernelIdeal.Norm3.final (V6 m ρ) c)).trans ?_
  show Cert.Spec.bnRelu (W6 m ρ c (Proc.devRef .tc main_v47)) (W6 m ρ c (Proc.devRef .tc main_v75)) (W6 m ρ c (Proc.devRef .tc main_v11)) (W6 m ρ c (Proc.devRef .tc main_v76)) (W6 m ρ c (Proc.devRef .tc main_v77)) (W6 m ρ c (Proc.devRef .tc main_v78)) (W6 m ρ c (Proc.devRef .tc main_v79)) (W6 m ρ c (Proc.devRef .tc main_v80)) = _
  rw [s6_v47 m ρ c, s6_v75 m ρ c, s6_v11 m ρ c, s6_v76 m ρ c, s6_v77 m ρ c, s6_v78 m ρ c, s6_v79 m ρ c, s6_v80 m ρ c]
  exact Cert.ReferenceIdeal.Layers.layer2 _ _ _ _ _ _ _ _ _ _ _ _ _ _ _ _
theorem s7_v1 : W7 m ρ c (Proc.devRef .tc main_v1) = (Cert.ReferenceIdeal.Read.val_main_v1 (F := Ideal) (m ((c.tc : Thread nD τ).loc main_arg1))) :=
  (W7_of_ne m ρ c main_v1 (by decide)).trans (s6_v1 m ρ c)
theorem s7_v3 : W7 m ρ c (Proc.devRef .tc main_v3) = (Cert.ReferenceIdeal.Read.val_main_v3 (F := Ideal) (m ((c.tc : Thread nD τ).loc main_arg1))) :=
  (W7_of_ne m ρ c main_v3 (by decide)).trans (s6_v3 m ρ c)
theorem s7_v10 : W7 m ρ c (Proc.devRef .tc main_v10) = (Cert.ReferenceIdeal.Read.val_main_v10 (F := Ideal) (m ((c.tc : Thread nD τ).loc main_arg1))) :=
  (W7_of_ne m ρ c main_v10 (by decide)).trans (s6_v10 m ρ c)
theorem s7_v11 : W7 m ρ c (Proc.devRef .tc main_v11) = (shapeCast S100000x1 (Cert.ReferenceIdeal.Read.val_main_v10 (F := Ideal) (m ((c.tc : Thread nD τ).loc main_arg1))) shapeCasts_S100000_S100000x1) :=
  ((W7_arr m ρ c 2).trans (((dat3 (V6 m ρ) c).arrAt_in 2 rfl _).trans (A_eq3 (V6 m ρ) c 2))).trans (s6_v11 m ρ c)
theorem s7_arg6 : W7 m ρ c (Proc.devRef .tc main_arg6) = (m ((c.tc : Thread nD τ).loc main_arg6)) :=
  (W7_of_ne m ρ c main_arg6 (by decide)).trans (s6_arg6 m ρ c)
theorem s7_arg7 : W7 m ρ c (Proc.devRef .tc main_arg7) = (m ((c.tc : Thread nD τ).loc main_arg7)) :=
  (W7_of_ne m ρ c main_arg7 (by decide)).trans (s6_arg7 m ρ c)

/-! ## After the fifth region: the last dense product -/

theorem s8_v82 : W8 m ρ c (Proc.devRef .tc main_v82) = (Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  refine ((W8_arr m ρ c 2).trans (Cert.KernelIdeal.Dense4.final (V7 m ρ) c)).trans ?_
  show Cert.Spec.lin1 (W7 m ρ c (Proc.devRef .tc main_v81)) (W7 m ρ c (Proc.devRef .tc main_arg6)) = _
  rw [s7_v81 m ρ c, s7_arg6 m ρ c]
  exact (Cert.ReferenceIdeal.Layers.dot1 _ _ _ _ _ _ _ _ _ _ _ _ _ _ _).symm
theorem s8_v1 : W8 m ρ c (Proc.devRef .tc main_v1) = (Cert.ReferenceIdeal.Read.val_main_v1 (F := Ideal) (m ((c.tc : Thread nD τ).loc main_arg1))) :=
  (W8_of_ne m ρ c main_v1 (by decide)).trans (s7_v1 m ρ c)
theorem s8_v3 : W8 m ρ c (Proc.devRef .tc main_v3) = (Cert.ReferenceIdeal.Read.val_main_v3 (F := Ideal) (m ((c.tc : Thread nD τ).loc main_arg1))) :=
  (W8_of_ne m ρ c main_v3 (by decide)).trans (s7_v3 m ρ c)
theorem s8_v10 : W8 m ρ c (Proc.devRef .tc main_v10) = (Cert.ReferenceIdeal.Read.val_main_v10 (F := Ideal) (m ((c.tc : Thread nD τ).loc main_arg1))) :=
  (W8_of_ne m ρ c main_v10 (by decide)).trans (s7_v10 m ρ c)
theorem s8_v11 : W8 m ρ c (Proc.devRef .tc main_v11) = (shapeCast S100000x1 (Cert.ReferenceIdeal.Read.val_main_v10 (F := Ideal) (m ((c.tc : Thread nD τ).loc main_arg1))) shapeCasts_S100000_S100000x1) :=
  (W8_of_ne m ρ c main_v11 (by decide)).trans (s7_v11 m ρ c)
theorem s8_arg7 : W8 m ρ c (Proc.devRef .tc main_arg7) = (m ((c.tc : Thread nD τ).loc main_arg7)) :=
  (W8_of_ne m ρ c main_arg7 (by decide)).trans (s7_arg7 m ρ c)

/-! ## After the last stretch: the last aggregate and the bias -/

theorem s9_v11 : W9 m ρ c (Proc.devRef .tc main_v11) = (shapeCast S100000x1 (Cert.ReferenceIdeal.Read.val_main_v10 (F := Ideal) (m ((c.tc : Thread nD τ).loc main_arg1))) shapeCasts_S100000_S100000x1) := by
  refine Eq.trans ?_ (s8_v11 m ρ c)
  show StableHlo.after hostOps5 (W8 m ρ c) (Proc.devRef .tc main_v11) = _
  after_results_simp
theorem s9_v82 : W9 m ρ c (Proc.devRef .tc main_v82) = (Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  refine Eq.trans ?_ (s8_v82 m ρ c)
  show StableHlo.after hostOps5 (W8 m ρ c) (Proc.devRef .tc main_v82) = _
  after_results_simp
theorem s9_v109 : W9 m ρ c (Proc.devRef .tc main_v109) = (Cert.ReferenceIdeal.Read.val_main_v144 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  generalize hR : (Cert.ReferenceIdeal.Read.val_main_v144 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) = R
  show StableHlo.after hostOps5 (W8 m ρ c) (Proc.devRef .tc main_v109) = R
  after_results_simp
  rw [s8_v82 m ρ c, s8_v1 m ρ c, s8_v3 m ρ c, s8_v10 m ρ c, ← hR]
  rfl
theorem s9_v110 : W9 m ρ c (Proc.devRef .tc main_v110) = (shapeCast S1x1 (m ((c.tc : Thread nD τ).loc main_arg7)) shapeCasts_S1_S1x1) := by
  generalize hR : (shapeCast S1x1 (m ((c.tc : Thread nD τ).loc main_arg7)) shapeCasts_S1_S1x1) = R
  show StableHlo.after hostOps5 (W8 m ρ c) (Proc.devRef .tc main_v110) = R
  after_results_simp
  rw [s8_arg7 m ρ c, ← hR]
  rfl

/-! ## After the last region: the result -/

/-- The kernel's result buffer ends at the reference's result as a function of the arguments. -/
theorem s10_v111 : W10 m ρ c (Proc.devRef .tc main_v111) = (Cert.ReferenceIdeal.Read.val_main_v157 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  refine ((W10_arr m ρ c 4).trans (Cert.KernelIdeal.Logistic5.final (V9 m ρ) c)).trans ?_
  show Cert.Spec.logistic1 (W9 m ρ c (Proc.devRef .tc main_v82)) (W9 m ρ c (Proc.devRef .tc main_v109)) (W9 m ρ c (Proc.devRef .tc main_v11)) (W9 m ρ c (Proc.devRef .tc main_v110)) = _
  rw [s9_v82 m ρ c, s9_v109 m ρ c, s9_v11 m ρ c, s9_v110 m ρ c]
  exact Cert.ReferenceIdeal.Layers.layer3 _ _ _ _ _ _ _ _ _ _ _ _ _ _ _ _ _ _

end Cert.KernelIdeal.Chain

end
-- ==== Proof.lean ====
/-
  A three-layer graph convolution network on 100000 nodes and 3200000 edges, the dense stages in six
  TensorCore regions, against its plain reference; the two idealized programs compute equal results.

  Both programs take the node features X [100000, 128], the edge list, three weight matrices and biases and the
  parameters of two batch normalisations. Both compute the inverse root degrees d (one plus the number of edges
  into a node, under the reciprocal square root) and then, per layer, the dense product H = X W, the aggregate
  A of H gathered along the edges, scaled by d at both ends of each edge and summed at the destinations, and
  the combination (A + H * (d * d)) + b, followed in the first two layers by normalisation and rectifier and in
  the last by the logistic function. The gathers and the scatter are host operations in both programs, the
  same ones; the kernel's regions compute the three dense products (block of 2000 rows by block) and the three
  combinations.

  On the extended reals: the regions' roundings to bf16 are the identity and a matrix product into a zero
  accumulator is the plain sum over the contracted axis, the same sum the reference's product is; a region's
  blocks are rows 2000 t … 2000 t + 1999 of one whole-array function, so the array a region leaves is that
  function of the arrays it finds; a vector reshaped to a column or a row and a vector broadcast to a column
  or a row read the same entries; 0 - x is - x. No law used needs finiteness, so the precondition is never
  opened. The frames of the two kernel programs are the generated ones, the reference's frame is its generated
  run; no operation was rewritten by the idealization, so there is nothing to preserve.
-/
import proofs.«137989_j41266045780998_1_alg».proof.Defs
import proofs.«137989_j41266045780998_1_alg».proof.Proof.Gen.Kernel
import proofs.«137989_j41266045780998_1_alg».proof.Proof.Gen.Kernel.Frame
import proofs.«137989_j41266045780998_1_alg».proof.Proof.Gen.KernelIdeal
import proofs.«137989_j41266045780998_1_alg».proof.Proof.Gen.KernelIdeal.Frame
import proofs.«137989_j41266045780998_1_alg».proof.Proof.Gen.ReferenceIdeal
import proofs.«137989_j41266045780998_1_alg».proof.Proof.Gen.Pre_finite_inputs
import proofs.«137989_j41266045780998_1_alg».proof.Proof.Gen.ReferenceIdeal.Run
import proofs.«137989_j41266045780998_1_alg».proof.Proof.Gen.ReferenceIdeal.Read
import proofs.«137989_j41266045780998_1_alg».proof.Proof.KernelRun
import proofs.«137989_j41266045780998_1_alg».proof.Proof.ChainC
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs run, from memories agreeing on the sixteen arguments, to equal results: the kernel's
    result buffer ends at the last link of its chain of boundary contents, which is the reference's result as a
    function of the arguments; the reference's run ends at that function of its own, equal, arguments. -/
theorem algebraic : Cert.algebraic_KernelIdeal_ReferenceIdeal := by
  intro m ρ m' ρ' _ hagree
  refine ⟨fun c => Cert.KernelIdeal.Gen.W10 m ρ c (Proc.devRef .tc Cert.KernelIdeal.main_v111),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  rw [Cert.ReferenceIdeal.Read.val_main_v157_eq, e0, e1, e2, e3, e4, e5, e6, e7, e8, e9, e10, e11, e12, e13, e14, e15]
  exact (Cert.KernelIdeal.Chain.s10_v111 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
